-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x128 : Shape := ⟨4, ![4, 64, 64, 128]⟩
abbrev S_ : Shape := ⟨0, ![]⟩

class Facts : Prop where
  bcast_S_S4x64x64x128 : S_.BroadcastsInDim S4x64x64x128 (![] : Fin 0 → Fin S4x64x64x128.rank)
  reducesTo_S4x64x64x128_S_d0_1_2_3 : S4x64x64x128.ReducesTo [0, 1, 2, 3] S_
  h_S_ : 0 < S_.numel

variable [Facts]

def fn {F : FTy → Type} [FloatOps F] (main_arg0 : FVec F S4x64x64x128 .f32) (main_arg1 : FVec F S4x64x64x128 .f32) : IVec S_ 1 :=
  let main_v0 : FVec F S4x64x64x128 .f32 := Host.absf main_arg0
  let main_cst : FVec F S_ .f32 := constant S_ .f32 0x7F800000#32
  let main_v1 : FVec F S4x64x64x128 .f32 := broadcastInDim S4x64x64x128 ![] bcast_S_S4x64x64x128 main_cst
  let main_v2 : IVec S4x64x64x128 1 := cmpf .olt main_v0 main_v1
  let main_c : IVec S_ 1 := constantI S_ 1 1#1
  let main_v3 : IVec S_ 1 := (fun x v => Host.reduce IntOp.andi x v reducesTo_S4x64x64x128_S_d0_1_2_3 h_S_) main_v2 main_c
  let main_v4 : FVec F S4x64x64x128 .f32 := Host.absf main_arg1
  let main_cst_0 : FVec F S_ .f32 := constant S_ .f32 0x7F800000#32
  let main_v5 : FVec F S4x64x64x128 .f32 := broadcastInDim S4x64x64x128 ![] bcast_S_S4x64x64x128 main_cst_0
  let main_v6 : IVec S4x64x64x128 1 := cmpf .olt main_v4 main_v5
  let main_c_1 : IVec S_ 1 := constantI S_ 1 1#1
  let main_v7 : IVec S_ 1 := (fun x v => Host.reduce IntOp.andi x v reducesTo_S4x64x64x128_S_d0_1_2_3 h_S_) main_v6 main_c_1
  let main_v8 : IVec S_ 1 := andi main_v3 main_v7
  main_v8
-- ==== Kernel.lean ====
abbrev S4x64x64x128 : Shape := ⟨4, ![4, 64, 64, 128]⟩
abbrev S_ : Shape := ⟨0, ![]⟩
abbrev S4x128 : Shape := ⟨2, ![4, 128]⟩
abbrev S4x1x1x128 : Shape := ⟨4, ![4, 1, 1, 128]⟩
abbrev S4x4096x128 : Shape := ⟨3, ![4, 4096, 128]⟩
abbrev S4x4096 : Shape := ⟨2, ![4, 4096]⟩
abbrev S4x4096x1 : Shape := ⟨3, ![4, 4096, 1]⟩
abbrev S4x256x128 : Shape := ⟨3, ![4, 256, 128]⟩
abbrev S4x256 : Shape := ⟨2, ![4, 256]⟩
abbrev S4x256x4096 : Shape := ⟨3, ![4, 256, 4096]⟩
abbrev S4x256x1 : Shape := ⟨3, ![4, 256, 1]⟩
abbrev S4 : Shape := ⟨1, ![4]⟩

abbrev nBuf : Space → Nat
  | .hbm => 44
  | .vmem => 5
  | .smem => 0
  | _ => 0

abbrev bufTy : (tb : Table) → Fin (tcTables nBuf tb) → BufTy
  | .hbm, ⟨0, _⟩ => ⟨S4x64x64x128, .f32⟩
  | .hbm, ⟨1, _⟩ => ⟨S4x64x64x128, .f32⟩
  | .hbm, ⟨2, _⟩ => ⟨S_, .f32⟩
  | .hbm, ⟨3, _⟩ => ⟨S4x128, .f32⟩
  | .hbm, ⟨4, _⟩ => ⟨S4x1x1x128, .f32⟩
  | .hbm, ⟨5, _⟩ => ⟨S_, .f32⟩
  | .hbm, ⟨6, _⟩ => ⟨S4x1x1x128, .f32⟩
  | .hbm, ⟨7, _⟩ => ⟨S4x1x1x128, .f32⟩
  | .hbm, ⟨8, _⟩ => ⟨S4x64x64x128, .f32⟩
  | .hbm, ⟨9, _⟩ => ⟨S4x64x64x128, .f32⟩
  | .hbm, ⟨10, _⟩ => ⟨S4x64x64x128, .f32⟩
  | .hbm, ⟨11, _⟩ => ⟨S4x64x64x128, .f32⟩
  | .hbm, ⟨12, _⟩ => ⟨S4x4096x128, .f32⟩
  | .hbm, ⟨13, _⟩ => ⟨S4x4096x128, .f32⟩
  | .hbm, ⟨14, _⟩ => ⟨S4x4096x128, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x1, .f32⟩
  | .hbm, ⟨19, _⟩ => ⟨S4x4096x128, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x128, .f32⟩
  | .hbm, ⟨28, _⟩ => ⟨S4x4096x128, .f32⟩
  | .hbm, ⟨29, _⟩ => ⟨S4x4096x128, .bf16⟩
  | .hbm, ⟨30, _⟩ => ⟨S_, .f32⟩
  | .hbm, ⟨31, _⟩ => ⟨S4x4096x1, .f32⟩
  | .hbm, ⟨32, _⟩ => ⟨S4x4096x1, .f32⟩
  | .hbm, ⟨33, _⟩ => ⟨S4x4096x128, .f32⟩
  | .hbm, ⟨34, _⟩ => ⟨S4x4096x128, .f32⟩
  | .hbm, ⟨35, _⟩ => ⟨S4x4096x128, .bf16⟩
  | .hbm, ⟨36, _⟩ => ⟨S4x4096, .f32⟩
  | .hbm, ⟨37, _⟩ => ⟨S_, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S4, .f32⟩
  | .hbm, ⟨43, _⟩ => ⟨S4, .f32⟩
  | .local _ .vmem, ⟨0, _⟩ => ⟨S4x256x128, .bf16⟩
  | .local _ .vmem, ⟨1, _⟩ => ⟨S4x256x128, .bf16⟩
  | .local _ .vmem, ⟨2, _⟩ => ⟨S4x4096x128, .bf16⟩
  | .local _ .vmem, ⟨3, _⟩ => ⟨S4x256, .f32⟩
  | .local _ .vmem, ⟨4, _⟩ => ⟨S4x256, .f32⟩
  | _, _ => ⟨S4x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4x64x64x128_S4x128_d1_2 : S4x64x64x128.ReducesTo [1, 2] S4x128
  h_S_ : 0 < S_.numel
  bcast_S4x128_S4x1x1x128_0_3 : S4x128.BroadcastsInDim S4x1x1x128 (![0, 3] : Fin 2 → Fin S4x1x1x128.rank)
  bcast_S_S4x1x1x128 : S_.BroadcastsInDim S4x1x1x128 (![] : Fin 0 → Fin S4x1x1x128.rank)
  bcast_S4x1x1x128_S4x64x64x128_0_1_2_3 : S4x1x1x128.BroadcastsInDim S4x64x64x128 (![0, 1, 2, 3] : Fin 4 → Fin S4x64x64x128.rank)
  shapeCasts_S4x64x64x128_S4x4096x128 : S4x64x64x128.ShapeCasts S4x4096x128
  reducesTo_S4x4096x128_S4x4096_d2 : S4x4096x128.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x128_0_1_2 : S4x4096x1.BroadcastsInDim S4x4096x128 (![0, 1, 2] : Fin 3 → Fin S4x4096x128.rank)
  bitsLt_bf16_f32 : FTy.bits .bf16 < FTy.bits .f32
  inb_S4x256x128_S4x256x128_0_0_0 : ∀ a, (![0, 0, 0] : Fin 3 → Nat) a + S4x256x128.size a ≤ S4x256x128.size a
  h_S4x256x128 : 0 < S4x256x128.numel
  shapeCasts_S4x256x128_S4x256x128 : S4x256x128.ShapeCasts S4x256x128
  inb_S4x4096x128_S4x4096x128_0_0_0 : ∀ a, (![0, 0, 0] : Fin 3 → Nat) a + S4x4096x128.size a ≤ S4x4096x128.size a
  h_S4x4096x128 : 0 < S4x4096x128.numel
  shapeCasts_S4x4096x128_S4x4096x128 : S4x4096x128.ShapeCasts S4x4096x128
  reduces_S4x256x4096_S4x256 : S4x256x4096.Reduces [2] S4x256
  shapeCasts_S4x256_S4x256x1 : S4x256.ShapeCasts S4x256x1
  broadcasts_S4x256x1_S4x256x4096 : S4x256x1.Broadcasts S4x256x4096
  shapeCasts_S4x256x1_S4x256 : S4x256x1.ShapeCasts S4x256
  inb_S4x256_S4x256_0_0 : ∀ a, (![0, 0] : Fin 2 → Nat) a + S4x256.size a ≤ S4x256.size a
  h_S4x256 : 0 < S4x256.numel
  reducesTo_S4x4096_S4_d1 : S4x4096.ReducesTo [1] S4
  bcast_S_S4 : S_.BroadcastsInDim S4 (![] : Fin 0 → Fin S4.rank)
  dot_S4x256x128_S4x4096x128_S4x256x4096_2_2_1_1_0_0_wf : DotDims.WF S4x256x128 S4x4096x128 S4x256x4096 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x128.size a ≤ S4x4096x128.size a
  hwx0_0 : ∀ i : grid0.Coords, EltTy.bits .bf16 = 32 ∨ (Rect.block (s := S4x4096x128) S4x256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096x128.size a ≤ S4x4096x128.size a
  hwx0_1 : ∀ i : grid0.Coords, EltTy.bits .bf16 = 32 ∨ (Rect.block (s := S4x4096x128) S4x4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x4096.size a
  hwx0_2 : ∀ i : grid0.Coords, EltTy.bits .f32 = 32 ∨ (Rect.block (s := S4x4096) S4x256.size (cc0_transform_2 i) (hinb0_2 i)).WholeWords (EltTy.packing .f32)

variable [Facts₀]

def dot_S4x256x128_S4x4096x128_S4x256x4096_2_2_1_1_0_0 : DotDims S4x256x128 S4x4096x128 S4x256x4096 where
  lhsContracting := [2]
  rhsContracting := [2]
  lhsNonContracting := [1]
  rhsNonContracting := [1]
  lhsBatch := [0]
  rhsBatch := [0]
  wf := dot_S4x256x128_S4x4096x128_S4x256x4096_2_2_1_1_0_0_wf

abbrev win0_0 : Pipeline.Window sig grid0 :=
  Pipeline.Window.ofSpec (Memref.whole main_v22) S4x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4x4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x64x128 : Shape := ⟨4, ![4, 64, 64, 128]⟩
abbrev S4x128x64x64 : Shape := ⟨4, ![4, 128, 64, 64]⟩
abbrev S4x128x4096 : Shape := ⟨3, ![4, 128, 4096]⟩
abbrev S_ : Shape := ⟨0, ![]⟩
abbrev S4x128 : Shape := ⟨2, ![4, 128]⟩
abbrev S4x128x1x1 : Shape := ⟨4, ![4, 128, 1, 1]⟩
abbrev S4x4096 : Shape := ⟨2, ![4, 4096]⟩
abbrev S4x1x4096 : Shape := ⟨3, ![4, 1, 4096]⟩
abbrev S4x4096x4096 : Shape := ⟨3, ![4, 4096, 4096]⟩
abbrev S4x4096x1 : Shape := ⟨3, ![4, 4096, 1]⟩
abbrev S4 : Shape := ⟨1, ![4]⟩

abbrev nBuf : Space → Nat
  | .hbm => 70
  | .vmem => 0
  | .smem => 0
  | _ => 0

abbrev bufTy : (tb : Table) → Fin (tcTables nBuf tb) → BufTy
  | .hbm, ⟨0, _⟩ => ⟨S4x64x64x128, .f32⟩
  | .hbm, ⟨1, _⟩ => ⟨S4x64x64x128, .f32⟩
  | .hbm, ⟨2, _⟩ => ⟨S4x128x64x64, .f32⟩
  | .hbm, ⟨3, _⟩ => ⟨S4x128x64x64, .f32⟩
  | .hbm, ⟨4, _⟩ => ⟨S4x128x4096, .f32⟩
  | .hbm, ⟨5, _⟩ => ⟨S_, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128x1x1, .f32⟩
  | .hbm, ⟨11, _⟩ => ⟨S4x128x64x64, .f32⟩
  | .hbm, ⟨12, _⟩ => ⟨S4x128x64x64, .f32⟩
  | .hbm, ⟨13, _⟩ => ⟨S4x128x64x64, .f32⟩
  | .hbm, ⟨14, _⟩ => ⟨S4x128x64x64, .f32⟩
  | .hbm, ⟨15, _⟩ => ⟨S4x128x4096, .f32⟩
  | .hbm, ⟨16, _⟩ => ⟨S4x128x4096, .f32⟩
  | .hbm, ⟨17, _⟩ => ⟨S4x128x4096, .f32⟩
  | .hbm, ⟨18, _⟩ => ⟨S_, .f32⟩
  | .hbm, ⟨19, _⟩ => ⟨S4x4096, .f32⟩
  | .hbm, ⟨20, _⟩ => ⟨S4x1x4096, .f32⟩
  | .hbm, ⟨21, _⟩ => ⟨S4x1x4096, .f32⟩
  | .hbm, ⟨22, _⟩ => ⟨S_, .f32⟩
  | .hbm, ⟨23, _⟩ => ⟨S4x1x4096, .f32⟩
  | .hbm, ⟨24, _⟩ => ⟨S4x1x4096, .f32⟩
  | .hbm, ⟨25, _⟩ => ⟨S4x128x4096, .f32⟩
  | .hbm, ⟨26, _⟩ => ⟨S4x128x4096, .f32⟩
  | .hbm, ⟨27, _⟩ => ⟨S4x128x4096, .f32⟩
  | .hbm, ⟨28, _⟩ => ⟨S_, .f32⟩
  | .hbm, ⟨29, _⟩ => ⟨S4x4096, .f32⟩
  | .hbm, ⟨30, _⟩ => ⟨S4x1x4096, .f32⟩
  | .hbm, ⟨31, _⟩ => ⟨S4x1x4096, .f32⟩
  | .hbm, ⟨32, _⟩ => ⟨S_, .f32⟩
  | .hbm, ⟨33, _⟩ => ⟨S4x1x4096, .f32⟩
  | .hbm, ⟨34, _⟩ => ⟨S4x1x4096, .f32⟩
  | .hbm, ⟨35, _⟩ => ⟨S4x128x4096, .f32⟩
  | .hbm, ⟨36, _⟩ => ⟨S4x128x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096x4096, .f32⟩
  | .hbm, ⟨51, _⟩ => ⟨S4x4096x4096, .f32⟩
  | .hbm, ⟨52, _⟩ => ⟨S_, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x4096, .f32⟩
  | .hbm, ⟨60, _⟩ => ⟨S4x4096x4096, .f32⟩
  | .hbm, ⟨61, _⟩ => ⟨S_, .f32⟩
  | .hbm, ⟨62, _⟩ => ⟨S4x4096, .f32⟩
  | .hbm, ⟨63, _⟩ => ⟨S_, .f32⟩
  | .hbm, ⟨64, _⟩ => ⟨S4, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | _, _ => ⟨S4x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  transposes_S4x64x64x128_S4x128x64x64_0_3_1_2 : S4x64x64x128.Transposes [0, 3, 1, 2] S4x128x64x64
  shapeCasts_S4x128x64x64_S4x128x4096 : S4x128x64x64.ShapeCasts S4x128x4096
  reducesTo_S4x128x4096_S4x128_d2 : S4x128x4096.ReducesTo [2] S4x128
  h_S_ : 0 < S_.numel
  bcast_S_S4x128 : S_.BroadcastsInDim S4x128 (![] : Fin 0 → Fin S4x128.rank)
  bcast_S4x128_S4x128x1x1_0_1 : S4x128.BroadcastsInDim S4x128x1x1 (![0, 1] : Fin 2 → Fin S4x128x1x1.rank)
  bcast_S4x128x1x1_S4x128x64x64_0_1_2_3 : S4x128x1x1.BroadcastsInDim S4x128x64x64 (![0, 1, 2, 3] : Fin 4 → Fin S4x128x64x64.rank)
  reducesTo_S4x128x4096_S4x4096_d1 : S4x128x4096.ReducesTo [1] S4x4096
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x128x4096_0_1_2 : S4x1x4096.BroadcastsInDim S4x128x4096 (![0, 1, 2] : Fin 3 → Fin S4x128x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096_S4_d1 : S4x4096.ReducesTo [1] S4
  bcast_S_S4 : S_.BroadcastsInDim S4 (![] : Fin 0 → Fin S4.rank)
  dot_S4x128x4096_S4x128x4096_S4x4096x4096_1_1_2_2_0_0_wf : DotDims.WF S4x128x4096 S4x128x4096 S4x4096x4096 [1] [1] [2] [2] [0] [0]

variable [Facts₀]

def dot_S4x128x4096_S4x128x4096_S4x4096x4096_1_1_2_2_0_0 : DotDims S4x128x4096 S4x128x4096 S4x4096x4096 where
  lhsContracting := [1]
  rhsContracting := [1]
  lhsNonContracting := [2]
  rhsNonContracting := [2]
  lhsBatch := [0]
  rhsBatch := [0]
  wf := dot_S4x128x4096_S4x128x4096_S4x4096x4096_1_1_2_2_0_0_wf

class Facts : Prop extends Facts₀ where

variable [Facts]
-- ==== Proof.FiniteInputs.lean ====
/-
  The printed precondition `finite_inputs` read back at the extended reals. The predicate is
  `jnp.all (|arg0| < +inf) ∧ jnp.all (|arg1| < +inf)`: each `jnp.all` a reduction by `and` over all four axes of
  the element-wise comparison of `max x (-x)` against the value of the word 0x7F800000, which is `⊤`. An extended
  real whose absolute value lies strictly below `⊤` is neither `⊥` nor `⊤`, hence a real number. So when the
  predicate evaluates to 1, every element of both operands is (the coercion of) a real.
-/
import proofs.«141335_j27754078667510_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteInputs

open Idealize.ShloMosaic

/-- A shape of rank 0 has exactly one index (the empty tuple of coordinates). -/
instance subsingleton_S_Idx : Subsingleton Cert.Pre_finite_inputs.S_.Idx :=
  ⟨fun a b => funext fun d => d.elim0⟩

/-- The f32 word 0x7F800000 (sign 0, exponent all ones, significand 0) denotes `+∞`. -/
theorem ofBits_inf : Ideal.ofBits .f32 0x7F800000#32 = (⊤ : EReal) := by
  simp [Ideal.ofBits, Ideal.ieee]

/-- A one-bit word built from a Boolean is 1 exactly when the Boolean is true. -/
theorem ofBool_eq_one (b : Bool) : BitVec.ofBool b = 1#1 ↔ b = true := by cases b <;> decide

/-- An extended real with `|x| = max x (-x) < ⊤` is a real number: `⊥` has `-⊥ = ⊤` and `⊤` is `⊤` itself, so
    in both infinite cases the maximum is `⊤`, which is not below `⊤`. -/
theorem real_of_abs_lt_top (x : EReal) (h : max x (-x) < ⊤) : ∃ r : ℝ, x = (r : EReal) := by
  induction x using EReal.rec with
  | bot => simp at h
  | top => simp at h
  | coe r => exact ⟨r, rfl⟩

/-- The element fact of the predicate: the comparison `|x| < +inf` coming out 1 makes `x` a real. -/
theorem real_of_cmpf (x : Ideal .f32)
    (h : FloatOps.cmpf .olt (FloatOps.hostAbsf x) (Ideal.ofBits .f32 0x7F800000#32) = 1#1) :
    ∃ r : ℝ, x = (r : EReal) := by
  rw [Ideal.hostAbsf_def, Ideal.cmpf_def, Ideal.absf_def, ofBits_inf] at h
  unfold Ideal.cmp at h
  rw [ofBool_eq_one] at h
  exact real_of_abs_lt_top x (of_decide_eq_true h)

/-- THE PRECONDITION DECODED: if `finite_inputs` evaluates to 1 on `x0`, `x1`, every element of both is a real. -/
theorem finite_of_pre [Cert.Pre_finite_inputs.Facts]
    (x0 x1 : FVec Ideal Cert.Pre_finite_inputs.S4x64x64x128 .f32)
    (h : Cert.Pre_finite_inputs.fn (F := Ideal) x0 x1 = fun _ => 1#1) :
    (∀ i, ∃ r : ℝ, x0 i = (r : EReal)) ∧ (∀ i, ∃ r : ℝ, x1 i = (r : EReal)) := by
  have e := congrFun h ValueIdx.ix0
  dsimp only [Cert.Pre_finite_inputs.fn] at e
  obtain ⟨e0, e1⟩ := IntOp.andi_eq_one.1 e
  refine ⟨fun i => ?_, fun i => ?_⟩
  · exact real_of_cmpf (x0 i) (Host.reduce_andi_all _ _ _ _ _ e0 i)
  · exact real_of_cmpf (x1 i) (Host.reduce_andi_all _ _ _ _ _ e1 i)

end Cert.FiniteInputs

end
-- ==== Proof.KerRow.lean ====
/-
  The kernel body's stored value read at an index.  A grid point holds a block X of 256 query positions
  ([4, 256, 128]) and the whole key array Y ([4, 4096, 128]).  For batch b and query q the body forms the similarities
  c k = ∑ j, X (b, q, j) · Y (b, k, j), clamps them to [-1, 1], takes their maximum M over the keys, the divisor
  D = (1 - M) + e, the weights w k = exp ((c k - M + e) / (D · h)) and stores exp ((e / D) / h) / ∑ w.
  This module reads that value, operation by operation, as one expression `kerRow` of the row of similarities.
-/
import proofs.«141335_j27754078667510_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KerRow

open Cert.KernelIdeal Cert.KernelIdeal.Gen Idealize.ShloMosaic Idealize.ShloMosaic.ValueIdx

/-- A similarity clamped to [-1, 1]. -/
def clamp (x : EReal) : EReal :=
  min (Ideal.ofBits .f32 0x3F800000#32) (max (Ideal.ofBits .f32 0xBF800000#32) x)

/-- The largest clamped similarity of the row (the fold starts from -∞). -/
def kerMax (c : Fin 4096 → EReal) : EReal :=
  Finset.univ.fold max (Ideal.ofBits .f32 0xFF800000#32) (fun k => clamp (c k))

/-- The divisor: one minus the maximum, plus the guard e. -/
def kerDen (c : Fin 4096 → EReal) : EReal :=
  (Ideal.ofBits .f32 0x3F800000#32 - kerMax c) + Ideal.ofBits .f32 0x3A83126F#32

/-- The weight of key k. -/
def kerW (c : Fin 4096 → EReal) (k : Fin 4096) : EReal :=
  Ideal.exp (Ideal.div ((clamp (c k) - kerMax c) + Ideal.ofBits .f32 0x3A83126F#32)
    (kerDen c * Ideal.ofBits .f32 0x3DCCCCCD#32))

/-- The stored value: the weight at the maximum over the sum of the weights. -/
def kerRow (c : Fin 4096 → EReal) : EReal :=
  Ideal.div (Ideal.exp (Ideal.div (Ideal.div (Ideal.ofBits .f32 0x3A83126F#32) (kerDen c)) (Ideal.ofBits .f32 0x3DCCCCCD#32)))
    (∑ k : Fin 4096, kerW c k)

/-! ## The layout operations of the body, read at an index -/

/-- [4, 256] recast as [4, 256, 1]: entry (b, q, 0) is entry (b, q). -/
theorem addUnit_apply {α : Type} (v : S4x256.Idx → α) (h : S4x256.ShapeCasts S4x256x1) (b : Fin 4) (q : Fin 256) (z : Fin 1) :
    shapeCast S4x256x1 v h (ix3 b q z) = v (ix2 b q) :=
  shapeCast_apply v h (ix3 b q z) (ix2 b q) (by
    rw [Shape.rowMajor_val_two, Shape.rowMajor_val_three]
    have hz : z.val = 0 := by have := z.isLt; omega
    show b.val * 256 + q.val = (b.val * 256 + q.val) * 1 + z.val
    omega)

/-- [4, 256, 1] recast as [4, 256]: entry (b, q) is entry (b, q, 0). -/
theorem dropUnit_apply {α : Type} (v : S4x256x1.Idx → α) (h : S4x256x1.ShapeCasts S4x256) (b : Fin 4) (q : Fin 256) :
    shapeCast S4x256 v h (ix2 b q) = v (ix3 b q (0 : Fin 1)) :=
  shapeCast_apply v h (ix2 b q) (ix3 b q (0 : Fin 1)) (by
    rw [Shape.rowMajor_val_two, Shape.rowMajor_val_three]
    show (b.val * 256 + q.val) * 1 + 0 = b.val * 256 + q.val
    omega)

/-- [4, 256, 1] stretched along the keys to [4, 256, 4096]: entry (b, q, k) is entry (b, q, 0). -/
theorem stretch_apply {α : Type} (v : S4x256x1.Idx → α) (h : S4x256x1.Broadcasts S4x256x4096) (b : Fin 4) (q : Fin 256) (k : Fin 4096) :
    broadcastTo S4x256x4096 v h (ix3 b q k) = v (ix3 b q (0 : Fin 1)) :=
  broadcastTo_apply v h (ix3 b q k) (ix3 b q (0 : Fin 1)) (fun a => match a with
    | ⟨0, _⟩ => by show b.val = if (4 : Nat) = 1 then 0 else b.val; rw [if_neg (by decide)]
    | ⟨1, _⟩ => by show q.val = if (256 : Nat) = 1 then 0 else q.val; rw [if_neg (by decide)]
    | ⟨2, _⟩ => by show 0 = if (1 : Nat) = 1 then 0 else k.val; rw [if_pos rfl])

/-- The reduced index (b, q) with the key coordinate put back is (b, q, k). -/
theorem lift_row (h : S4x256x4096.Reduces [2] S4x256) (b : Fin 4) (q : Fin 256)
    (k : Fin (S4x256x4096.size 2)) : h.lift (ix2 b q) k = ix3 b q (⟨k.val, k.isLt⟩ : Fin 4096) := by
  funext c; apply Fin.ext
  rw [Shape.Reduces.lift_val]
  match c with
  | ⟨0, _⟩ => rfl
  | ⟨1, _⟩ => rfl
  | ⟨2, _⟩ => rfl

/-- The lane maximum of a [4, 256, 4096] tile at row (b, q): the fold of max from -∞ over the 4096 keys. -/
theorem laneMax_apply (v : FVec Ideal S4x256x4096 .f32) (h : S4x256x4096.Reduces [2] S4x256)
    (hφ : FKind.Formats .f32) (hacc : (0xFF800000#32 : BitVec 32) = FKind.maximumf.neutral .f32 hφ) (b : Fin 4) (q : Fin 256) :
    multiReduction .maximumf [2] S4x256 v 0xFF800000#32 h hφ hacc (ix2 b q)
      = Finset.univ.fold max (Ideal.ofBits .f32 0xFF800000#32) (fun k : Fin 4096 => v (ix3 b q k)) := by
  refine (Ideal.multiReduction_maximumf_single v 0xFF800000#32 h hφ hacc (ix2 b q)).trans ?_
  have hf : (v ∘ h.lift (ix2 b q)) = fun k : Fin 4096 => v (ix3 b q k) :=
    funext fun k => congrArg v (lift_row h b q k)
  exact congrArg (fun f => Finset.fold max (Ideal.ofBits .f32 0xFF800000#32) f (Finset.univ : Finset (Fin 4096))) hf

/-- The lane sum of a [4, 256, 4096] tile at row (b, q): the sum over the 4096 keys. -/
theorem laneSum_apply (v : FVec Ideal S4x256x4096 .f32) (h : S4x256x4096.Reduces [2] S4x256)
    (hφ : FKind.Formats .f32) (hacc : (0x00000000#32 : BitVec 32) = FKind.add.neutral .f32 hφ) (b : Fin 4) (q : Fin 256) :
    multiReduction .add [2] S4x256 v 0x00000000#32 h hφ hacc (ix2 b q) = ∑ k : Fin 4096, v (ix3 b q k) := by
  refine (Ideal.multiReduction_add_single v 0x00000000#32 h hφ hacc (ix2 b q)).trans ?_
  exact Finset.sum_congr rfl fun k _ => congrArg v (lift_row h b q k)

/-! ## The similarities: the batched contraction over the channels -/

/-- The contraction's record: batch axis 0, rows of the left operand against rows of the right, contracted over axis 2. -/
abbrev dotQK : DotDims S4x256x128 S4x4096x128 S4x256x4096 := dot_S4x256x128_S4x4096x128_S4x256x4096_2_2_1_1_0_0

theorem lhs_0 (i : S4x256x4096.Idx) (κ : dotQK.contr.Idx) : (dotQK.lhsIdx i κ 0).val = (i 0).val := by
  unfold DotDims.lhsIdx
  rw [dif_pos (show (0 : Fin S4x256x128.rank) ∈ dotQK.lhsBatch by decide)]
  rfl
theorem lhs_1 (i : S4x256x4096.Idx) (κ : dotQK.contr.Idx) : (dotQK.lhsIdx i κ 1).val = (i 1).val := by
  unfold DotDims.lhsIdx
  rw [dif_neg (show ¬(1 : Fin S4x256x128.rank) ∈ dotQK.lhsBatch by decide),
    dif_pos (show (1 : Fin S4x256x128.rank) ∈ dotQK.lhsNonContracting by decide)]
  rfl
theorem lhs_2 (i : S4x256x4096.Idx) (κ : dotQK.contr.Idx) : (dotQK.lhsIdx i κ 2).val = (κ ⟨0, by decide⟩).val :=
  dotQK.lhsIdx_val_of_single rfl i κ
theorem rhs_0 (i : S4x256x4096.Idx) (κ : dotQK.contr.Idx) : (dotQK.rhsIdx i κ 0).val = (i 0).val := by
  unfold DotDims.rhsIdx
  rw [dif_pos (show (0 : Fin S4x4096x128.rank) ∈ dotQK.rhsBatch by decide)]
  rfl
theorem rhs_1 (i : S4x256x4096.Idx) (κ : dotQK.contr.Idx) : (dotQK.rhsIdx i κ 1).val = (i 2).val := by
  unfold DotDims.rhsIdx
  rw [dif_neg (show ¬(1 : Fin S4x4096x128.rank) ∈ dotQK.rhsBatch by decide),
    dif_pos (show (1 : Fin S4x4096x128.rank) ∈ dotQK.rhsNonContracting by decide)]
  rfl
theorem rhs_2 (i : S4x256x4096.Idx) (κ : dotQK.contr.Idx) : (dotQK.rhsIdx i κ 2).val = (κ ⟨0, by decide⟩).val :=
  dotQK.rhsIdx_val_of_single rfl i κ

/-- Into the zero splat, the contraction at (b, q, k) is the sum over the channels of the products. -/
theorem cos_apply (x : FVec Ideal S4x256x128 .bf16) (y : FVec Ideal S4x4096x128 .bf16) (b : Fin 4) (q : Fin 256) (k : Fin 4096) :
    matmul dotQK none x y (constant S4x256x4096 .f32 0x00000000#32) (ix3 b q k)
      = ∑ j : Fin 128, x (ix3 b q j) * y (ix3 b k j) := by
  simp only [matmul]
  rw [Ideal.matmul_constant_zero_apply, ← Equiv.sum_comp (ValueIdx.contrEquiv1 dotQK 128 rfl rfl).symm]
  refine Finset.sum_congr rfl fun j _ => ?_
  have hj := ValueIdx.contrEquiv1_symm_val dotQK 128 rfl rfl j
  have el : dotQK.lhsIdx (ix3 b q k) ((ValueIdx.contrEquiv1 dotQK 128 rfl rfl).symm j) = ix3 b q j := funext fun a => Fin.ext (by
    match a with
    | ⟨0, _⟩ => exact lhs_0 _ _
    | ⟨1, _⟩ => exact lhs_1 _ _
    | ⟨2, _⟩ => exact (lhs_2 _ _).trans hj)
  have er : dotQK.rhsIdx (ix3 b q k) ((ValueIdx.contrEquiv1 dotQK 128 rfl rfl).symm j) = ix3 b k j := funext fun a => Fin.ext (by
    match a with
    | ⟨0, _⟩ => exact rhs_0 _ _
    | ⟨1, _⟩ => exact rhs_1 _ _
    | ⟨2, _⟩ => exact (rhs_2 _ _).trans hj)
  rw [el, er]

/-! ## The body's value in stages -/

/-- The similarities of the block's queries against every key. -/
def sCos (x0 : Vec Ideal S4x256x128 .bf16) (x1 : Vec Ideal S4x4096x128 .bf16) : FVec Ideal S4x256x4096 .f32 :=
  matmul dotQK none (shapeCast S4x256x128 x0 shapeCasts_S4x256x128_S4x256x128 : FVec Ideal S4x256x128 .bf16)
    (shapeCast S4x4096x128 x1 shapeCasts_S4x4096x128_S4x4096x128 : FVec Ideal S4x4096x128 .bf16) (constant S4x256x4096 .f32 0x00000000#32)

/-- The similarities clamped to [-1, 1]. -/
def sClamp (x0 : Vec Ideal S4x256x128 .bf16) (x1 : Vec Ideal S4x4096x128 .bf16) : FVec Ideal S4x256x4096 .f32 :=
  minimumf (broadcast S4x256x4096 (Scalar.ofBits .f32 0x3F800000#32))
    (maximumf (broadcast S4x256x4096 (Scalar.ofBits .f32 0xBF800000#32)) (sCos x0 x1))

/-- The row maxima, as a column. -/
def sMax (x0 : Vec Ideal S4x256x128 .bf16) (x1 : Vec Ideal S4x4096x128 .bf16) : FVec Ideal S4x256x1 .f32 :=
  shapeCast S4x256x1 (multiReduction .maximumf [2] S4x256 (sClamp x0 x1) 0xFF800000#32 reduces_S4x256x4096_S4x256 (.inl rfl) rfl)
    shapeCasts_S4x256_S4x256x1

/-- The divisors, as a column. -/
def sDen (x0 : Vec Ideal S4x256x128 .bf16) (x1 : Vec Ideal S4x4096x128 .bf16) : FVec Ideal S4x256x1 .f32 :=
  addf (subf (broadcast S4x256x1 (Scalar.ofBits .f32 0x3F800000#32)) (sMax x0 x1)) (broadcast S4x256x1 (Scalar.ofBits .f32 0x3A83126F#32))

/-- The weights. -/
def sW (x0 : Vec Ideal S4x256x128 .bf16) (x1 : Vec Ideal S4x4096x128 .bf16) : FVec Ideal S4x256x4096 .f32 :=
  exp (divf (addf (subf (sClamp x0 x1) (broadcastTo S4x256x4096 (sMax x0 x1) broadcasts_S4x256x1_S4x256x4096))
      (broadcast S4x256x4096 (Scalar.ofBits .f32 0x3A83126F#32)))
    (broadcastTo S4x256x4096 (mulf (sDen x0 x1) (broadcast S4x256x1 (Scalar.ofBits .f32 0x3DCCCCCD#32))) broadcasts_S4x256x1_S4x256x4096))

/-- The sums of the weights, as a column. -/
def sSum (x0 : Vec Ideal S4x256x128 .bf16) (x1 : Vec Ideal S4x4096x128 .bf16) : FVec Ideal S4x256x1 .f32 :=
  shapeCast S4x256x1 (multiReduction .add [2] S4x256 (sW x0 x1) 0x00000000#32 reduces_S4x256x4096_S4x256 (.inl rfl) rfl)
    shapeCasts_S4x256_S4x256x1

/-- The stored value. -/
def sOut (x0 : Vec Ideal S4x256x128 .bf16) (x1 : Vec Ideal S4x4096x128 .bf16) : FVec Ideal S4x256 .f32 :=
  shapeCast S4x256 (divf (exp (divf (divf (broadcast S4x256x1 (Scalar.ofBits .f32 0x3A83126F#32)) (sDen x0 x1))
      (broadcast S4x256x1 (Scalar.ofBits .f32 0x3DCCCCCD#32)))) (sSum x0 x1)) shapeCasts_S4x256x1_S4x256

/-- The payload is the last stage. -/
theorem pay_eq (x0 : Vec Ideal S4x256x128 .bf16) (x1 : Vec Ideal S4x4096x128 .bf16) :
    k0_pay1 (F := Ideal) x0 x1 = sOut x0 x1 := rfl

variable (x0 : Vec Ideal S4x256x128 .bf16) (x1 : Vec Ideal S4x4096x128 .bf16) (b : Fin 4) (q : Fin 256)

/-- The row of similarities of query (b, q). -/
abbrev row : Fin 4096 → EReal := fun k => ∑ j : Fin 128, x0 (ix3 b q j) * x1 (ix3 b k j)

theorem sCos_apply (k : Fin 4096) : sCos x0 x1 (ix3 b q k) = row x0 x1 b q k := by
  unfold sCos
  rw [shapeCast_self, shapeCast_self]
  exact cos_apply x0 x1 b q k

/-- A scalar constant's word denotes the same extended real as the vector constant's. -/
theorem scalar_ofBits (φ : FTy) (w : BitVec φ.bits) : Scalar.ofBits (F := Ideal) φ w = Ideal.ofBits φ w := rfl

/-- The exponential of a vector at an index is the exponential of the element. -/
theorem exp_apply {s : Shape} {φ : FTy} (a : FVec Ideal s φ) (i : s.Idx) : exp a i = Ideal.exp (a i) := rfl

theorem sClamp_apply (k : Fin 4096) : sClamp x0 x1 (ix3 b q k) = clamp (row x0 x1 b q k) := by
  unfold sClamp clamp
  rw [minimumf_apply, maximumf_apply, broadcast_apply, broadcast_apply, sCos_apply, scalar_ofBits, scalar_ofBits]

theorem sMax_apply (z : Fin 1) : sMax x0 x1 (ix3 b q z) = kerMax (row x0 x1 b q) := by
  unfold sMax
  refine (addUnit_apply _ _ b q z).trans ?_
  refine (laneMax_apply _ _ _ _ b q).trans ?_
  unfold kerMax
  exact congrArg (fun f => Finset.fold max (Ideal.ofBits .f32 0xFF800000#32) f (Finset.univ : Finset (Fin 4096)))
    (funext fun k => sClamp_apply x0 x1 b q k)

theorem sDen_apply (z : Fin 1) : sDen x0 x1 (ix3 b q z) = kerDen (row x0 x1 b q) := by
  unfold sDen kerDen
  rw [addf_apply, subf_apply, broadcast_apply, broadcast_apply, sMax_apply, scalar_ofBits, scalar_ofBits]

theorem sW_apply (k : Fin 4096) : sW x0 x1 (ix3 b q k) = kerW (row x0 x1 b q) k := by
  unfold sW kerW
  rw [exp_apply, divf_apply, addf_apply, subf_apply, broadcast_apply, stretch_apply, stretch_apply, mulf_apply,
    broadcast_apply, sClamp_apply, sMax_apply, sDen_apply, scalar_ofBits, scalar_ofBits]

theorem sSum_apply (z : Fin 1) : sSum x0 x1 (ix3 b q z) = ∑ k : Fin 4096, kerW (row x0 x1 b q) k := by
  unfold sSum
  refine (addUnit_apply _ _ b q z).trans ?_
  refine (laneSum_apply _ _ _ _ b q).trans ?_
  exact Finset.sum_congr rfl fun k _ => sW_apply x0 x1 b q k

/-- The body's stored value at (b, q) is `kerRow` of the row of similarities. -/
theorem pay_apply : k0_pay1 (F := Ideal) x0 x1 (ix2 b q) = kerRow (row x0 x1 b q) := by
  rw [pay_eq]
  unfold sOut kerRow
  refine (dropUnit_apply _ _ b q).trans ?_
  rw [divf_apply, exp_apply, divf_apply, divf_apply, broadcast_apply, broadcast_apply, sDen_apply, sSum_apply,
    scalar_ofBits, scalar_ofBits]

end Cert.KerRow

end
-- ==== Proof.RowLaw.lean ====
import Mathlib
import Idealize.ShloMosaic.PureOps.Ideal

/-!
# One row of a contextual loss, in two arrangements

For one row of cosine similarities \`c : K → ℝ\` with \`|c k| ≤ 1\`, a normalised exponential
weight of the largest entry is computed in two ways on the extended reals.  Both
arrangements are shown to equal the coercion of one real number, \`rowVal c e h\`.

Write \`M = max_k c k\` and \`D = (1 - M) + e\`.  Since \`M ≤ 1\` and \`e > 0\`, \`D > 0\`, so every
division has a nonzero real denominator and is the coercion of the real quotient.
-/

open Idealize.ShloMosaic

namespace Cert.RowLaw

noncomputable section

/-! ### Pure real lemmas -/

/-- A vector divided by (its Euclidean length plus a positive number) has squared length at
    most one: the squared length is \`s / (√s + ε)²\` and \`s = (√s)² ≤ (√s + ε)²\`. -/
theorem normalized_sq_le_one {n : ℕ} (u : Fin n → ℝ) (ε : ℝ) (hε : 0 < ε) :
    ∑ j, (u j / (Real.sqrt (∑ i, u i * u i) + ε)) * (u j / (Real.sqrt (∑ i, u i * u i) + ε)) ≤ 1 := by
  have hs0 : 0 ≤ ∑ i, u i * u i := Finset.sum_nonneg (fun i _ => mul_self_nonneg _)
  generalize hs : ∑ i, u i * u i = s at hs0 ⊢
  have hr0 : 0 ≤ Real.sqrt s := Real.sqrt_nonneg s
  have hdpos : 0 < Real.sqrt s + ε := by linarith
  have hsum : ∑ j, (u j / (Real.sqrt s + ε)) * (u j / (Real.sqrt s + ε))
      = s / ((Real.sqrt s + ε) * (Real.sqrt s + ε)) := by
    rw [← hs, Finset.sum_div]
    refine Finset.sum_congr rfl (fun j _ => ?_)
    rw [div_mul_div_comm]
  rw [hsum, div_le_one (mul_pos hdpos hdpos)]
  calc s = Real.sqrt s * Real.sqrt s := (Real.mul_self_sqrt hs0).symm
    _ ≤ (Real.sqrt s + ε) * (Real.sqrt s + ε) :=
        mul_self_le_mul_self hr0 (by linarith)

/-- Cauchy–Schwarz: the inner product of two vectors of squared length at most one has
    absolute value at most one. -/
theorem abs_inner_le_one {n : ℕ} (a b : Fin n → ℝ) (ha : ∑ j, a j * a j ≤ 1)
    (hb : ∑ j, b j * b j ≤ 1) : |∑ j, a j * b j| ≤ 1 := by
  have hcs := Finset.sum_mul_sq_le_sq_mul_sq Finset.univ a b
  have ha' : ∑ j, a j ^ 2 ≤ 1 := by simpa only [sq] using ha
  have hb' : ∑ j, b j ^ 2 ≤ 1 := by simpa only [sq] using hb
  have hb0 : 0 ≤ ∑ j, b j ^ 2 := Finset.sum_nonneg (fun _ _ => sq_nonneg _)
  have hle : (∑ j, a j * b j) ^ 2 ≤ 1 := le_trans hcs (mul_le_one₀ ha' hb0 hb')
  exact (sq_le_one_iff_abs_le_one _).mp hle

/-! ### Coercion lemmas -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division of a real by a nonzero real, on the extended reals, is the real quotient. -/
theorem div_coe_coe (a b : ℝ) (hb : b ≠ 0) :
    Ideal.div (a : EReal) (b : EReal) = ((a / b : ℝ) : EReal) := by
  rw [Ideal.div_coe hb, ← EReal.coe_mul, mul_one_div]

/-- Clamping to \`[-1, 1]\` leaves a real of absolute value at most one unchanged. -/
theorem clamp_eq (x : ℝ) (hx : |x| ≤ 1) :
    min (1 : EReal) (max (-1 : EReal) (x : EReal)) = (x : EReal) := by
  obtain ⟨hlo, hhi⟩ := abs_le.mp hx
  have h1 : (-1 : EReal) ≤ (x : EReal) := by
    rw [← EReal.coe_one, ← EReal.coe_neg]; exact EReal.coe_le_coe_iff.mpr hlo
  have h2 : (x : EReal) ≤ (1 : EReal) := by
    rw [← EReal.coe_one]; exact EReal.coe_le_coe_iff.mpr hhi
  rw [max_eq_right h1, min_eq_right h2]

section Row

variable {K : Type*} [Fintype K] [Nonempty K]

/-- The running maximum from \`⊥\` over coerced reals is the coercion of the real maximum. -/
theorem fold_max_coe (f : K → ℝ) :
    Finset.univ.fold max (⊥ : EReal) (fun k => (f k : EReal))
      = ((Finset.univ.sup' Finset.univ_nonempty f : ℝ) : EReal) := by
  apply le_antisymm
  · exact (Finset.fold_max_le _).mpr ⟨bot_le, fun k _ =>
      EReal.coe_le_coe_iff.mpr (Finset.le_sup' f (Finset.mem_univ k))⟩
  · obtain ⟨k, _, hk⟩ := Finset.exists_mem_eq_sup' Finset.univ_nonempty f
    exact (Finset.le_fold_max _).mpr (Or.inr ⟨k, Finset.mem_univ k, by rw [hk]⟩)

/-- The running minimum from \`⊤\` of \`1 - c k\` is the coercion of \`1 - max c\`. -/
theorem fold_min_coe (c : K → ℝ) :
    Finset.univ.fold min (⊤ : EReal) (fun k => (1 : EReal) - (c k : EReal))
      = ((1 - Finset.univ.sup' Finset.univ_nonempty c : ℝ) : EReal) := by
  have hfun : (fun k => (1 : EReal) - (c k : EReal)) = fun k => ((1 - c k : ℝ) : EReal) := by
    funext k; rw [EReal.coe_sub, EReal.coe_one]
  rw [hfun]
  apply le_antisymm
  · obtain ⟨k, _, hk⟩ := Finset.exists_mem_eq_sup' Finset.univ_nonempty c
    exact (Finset.fold_min_le _).mpr (Or.inr ⟨k, Finset.mem_univ k, by rw [hk]⟩)
  · exact (Finset.le_fold_min _).mpr ⟨le_top, fun k _ =>
      EReal.coe_le_coe_iff.mpr (by
        have := Finset.le_sup' c (Finset.mem_univ k); linarith)⟩

/-- The common value of the two arrangements, as a real number. -/
def rowVal (c : K → ℝ) (e h : ℝ) : ℝ :=
  let M := Finset.univ.sup' Finset.univ_nonempty c
  Real.exp ((e / ((1 - M) + e)) / h) / ∑ k, Real.exp (((c k - M) + e) / (((1 - M) + e) * h))

/-- The maximum of entries of absolute value at most one is at most one. -/
theorem sup_le_one (c : K → ℝ) (hc : ∀ k, |c k| ≤ 1) :
    Finset.univ.sup' Finset.univ_nonempty c ≤ 1 :=
  Finset.sup'_le _ _ (fun k _ => (abs_le.mp (hc k)).2)

/-- The first arrangement with the maximum already a real number \`M\` and \`D = (1 - M) + e > 0\`. -/
theorem kernel_core (c : K → ℝ) (M e h : ℝ) (hD : 0 < (1 - M) + e) (hh : 0 < h) :
    Ideal.div (Ideal.exp (Ideal.div (Ideal.div (e : EReal) (((1 : EReal) - (M : EReal)) + (e : EReal))) (h : EReal)))
      (∑ k, Ideal.exp (Ideal.div (((c k : EReal) - (M : EReal)) + (e : EReal))
          ((((1 : EReal) - (M : EReal)) + (e : EReal)) * (h : EReal))))
    = ((Real.exp ((e / ((1 - M) + e)) / h)
        / ∑ k, Real.exp (((c k - M) + e) / (((1 - M) + e) * h)) : ℝ) : EReal) := by
  have hDc : ((1 : EReal) - (M : EReal)) + (e : EReal) = (((1 - M) + e : ℝ) : EReal) := by
    rw [EReal.coe_add, EReal.coe_sub, EReal.coe_one]
  have hnum : ∀ k, ((c k : EReal) - (M : EReal)) + (e : EReal) = (((c k - M) + e : ℝ) : EReal) :=
    fun k => by rw [EReal.coe_add, EReal.coe_sub]
  have hDh : ((1 - M) + e) * h ≠ 0 := (mul_pos hD hh).ne'
  have hterm : ∀ k, Ideal.exp (Ideal.div (((c k : EReal) - (M : EReal)) + (e : EReal))
          ((((1 : EReal) - (M : EReal)) + (e : EReal)) * (h : EReal)))
        = ((Real.exp (((c k - M) + e) / (((1 - M) + e) * h)) : ℝ) : EReal) := fun k => by
    rw [hDc, hnum k, ← EReal.coe_mul, div_coe_coe _ _ hDh, Ideal.exp_coe]
  have hS : 0 < ∑ k, Real.exp (((c k - M) + e) / (((1 - M) + e) * h)) :=
    Finset.sum_pos (fun k _ => Real.exp_pos _) Finset.univ_nonempty
  rw [Finset.sum_congr rfl (fun k _ => hterm k), ← coe_sum, hDc, div_coe_coe _ _ hD.ne',
    div_coe_coe _ _ hh.ne', Ideal.exp_coe, div_coe_coe _ _ hS.ne']

/-- The first arrangement: clamp each entry, subtract the running maximum, and normalise the
    exponential weight of the shift \`e\` by the sum of the exponential weights. -/
theorem kernel_row (c : K → ℝ) (hc : ∀ k, |c k| ≤ 1) (e h : ℝ) (he : 0 < e) (hh : 0 < h) :
    Ideal.div (Ideal.exp (Ideal.div (Ideal.div (e : EReal) (((1 : EReal) - Finset.univ.fold max (⊥ : EReal) (fun k => min (1 : EReal) (max (-1 : EReal) (c k : EReal)))) + (e : EReal))) (h : EReal)))
      (∑ k, Ideal.exp (Ideal.div (((min (1 : EReal) (max (-1 : EReal) (c k : EReal))) - Finset.univ.fold max (⊥ : EReal) (fun k => min (1 : EReal) (max (-1 : EReal) (c k : EReal)))) + (e : EReal))
          ((((1 : EReal) - Finset.univ.fold max (⊥ : EReal) (fun k => min (1 : EReal) (max (-1 : EReal) (c k : EReal)))) + (e : EReal)) * (h : EReal))))
    = ((rowVal c e h : ℝ) : EReal) := by
  have hD : 0 < (1 - Finset.univ.sup' Finset.univ_nonempty c) + e := by
    have := sup_le_one c hc; linarith
  simp only [clamp_eq _ (hc _)]
  rw [fold_max_coe c]
  exact kernel_core c _ e h hD hh

/-- The second arrangement: distances \`1 - c k\`, divided by (their minimum plus \`e\`), turned
    into exponential weights, each normalised by the sum; then the maximum is taken. -/
theorem reference_row (c : K → ℝ) (hc : ∀ k, |c k| ≤ 1) (e h : ℝ) (he : 0 < e) (hh : 0 < h) :
    Finset.univ.fold max (⊥ : EReal) (fun k => Ideal.div (Ideal.exp (Ideal.div ((1 : EReal) - Ideal.div ((1 : EReal) - (c k : EReal)) (Finset.univ.fold min (⊤ : EReal) (fun k => (1 : EReal) - (c k : EReal)) + (e : EReal))) (h : EReal)))
        ((0 : EReal) + ∑ j, Ideal.exp (Ideal.div ((1 : EReal) - Ideal.div ((1 : EReal) - (c j : EReal)) (Finset.univ.fold min (⊤ : EReal) (fun k => (1 : EReal) - (c k : EReal)) + (e : EReal))) (h : EReal))))
    = ((rowVal c e h : ℝ) : EReal) := by
  obtain ⟨ks, _, hks⟩ := Finset.exists_mem_eq_sup' Finset.univ_nonempty c
  have hMle : ∀ k, c k ≤ Finset.univ.sup' Finset.univ_nonempty c :=
    fun k => Finset.le_sup' c (Finset.mem_univ k)
  have hM1 := sup_le_one c hc
  rw [fold_min_coe c]
  unfold rowVal
  generalize Finset.univ.sup' Finset.univ_nonempty c = M at hks hMle hM1 ⊢
  have hD : 0 < (1 - M) + e := by linarith
  have hDc : ((1 - M : ℝ) : EReal) + (e : EReal) = (((1 - M) + e : ℝ) : EReal) := by
    rw [EReal.coe_add]
  rw [hDc]
  -- every weight is the coercion of a real exponential
  have hexp : ∀ k, (1 - (1 - c k) / ((1 - M) + e)) / h = ((c k - M) + e) / (((1 - M) + e) * h) := by
    intro k; field_simp; ring
  have hterm : ∀ k, Ideal.exp (Ideal.div ((1 : EReal) - Ideal.div ((1 : EReal) - (c k : EReal))
        ((((1 - M) + e : ℝ)) : EReal)) (h : EReal))
      = ((Real.exp (((c k - M) + e) / (((1 - M) + e) * h)) : ℝ) : EReal) := fun k => by
    rw [← EReal.coe_one, ← EReal.coe_sub, div_coe_coe _ _ hD.ne', ← EReal.coe_sub,
      div_coe_coe _ _ hh.ne', Ideal.exp_coe, hexp k]
  have hS : 0 < ∑ k, Real.exp (((c k - M) + e) / (((1 - M) + e) * h)) :=
    Finset.sum_pos (fun k _ => Real.exp_pos _) Finset.univ_nonempty
  simp only [hterm]
  rw [← coe_sum, zero_add]
  simp only [div_coe_coe _ _ hS.ne']
  rw [fold_max_coe]
  congr 1
  generalize ∑ k, Real.exp (((c k - M) + e) / (((1 - M) + e) * h)) = S at hS ⊢
  have htop : (e / ((1 - M) + e)) / h = ((c ks - M) + e) / (((1 - M) + e) * h) := by
    rw [← hks]; field_simp; ring
  apply le_antisymm
  · refine Finset.sup'_le _ _ (fun k _ => ?_)
    apply div_le_div_of_nonneg_right _ hS.le
    apply Real.exp_le_exp.mpr
    rw [htop]
    apply div_le_div_of_nonneg_right _ (mul_pos hD hh).le
    have := hMle k; rw [← hks]; linarith
  · rw [htop]
    exact Finset.le_sup' (fun k => Real.exp (((c k - M) + e) / (((1 - M) + e) * h)) / S)
      (Finset.mem_univ ks)

end Row

end

end Cert.RowLaw
-- ==== Proof.Consts.lean ====
import Idealize.ShloMosaic.PureOps.Ideal
import Idealize.ShloMosaic.PureOps.Ideal.Laws

/-!
# The float words of the two programs, as extended reals

Each 32-bit word is read as sign, eight exponent bits \`E\` and twenty-three fraction bits \`T\`:
a normal word denotes \`±(2^23 + T) · 2^(E - 150)\`, the all-ones exponent with \`T = 0\` denotes
\`±∞\`, and the all-zero word denotes \`0\`.
-/

noncomputable section

namespace Cert.Consts

open Idealize.ShloMosaic

/-- \`+0.0\` denotes \`0\`. -/
theorem ofBits_zero : Ideal.ofBits .f32 0x00000000#32 = 0 := Ideal.ofBits_zero_f32

/-- \`1.0\`: \`E = 127\`, \`T = 0\`, so \`2^23 · 2^(-23) = 1\`. -/
theorem ofBits_one : Ideal.ofBits .f32 0x3F800000#32 = 1 := by
  simp [Ideal.ofBits, Ideal.ieee, -EReal.coe_mul]; norm_num

/-- \`-1.0\`: the word of \`1.0\` with the sign bit set. -/
theorem ofBits_negone : Ideal.ofBits .f32 0xBF800000#32 = -1 := by
  simp [Ideal.ofBits, Ideal.ieee, -EReal.coe_mul]; norm_num

/-- \`+∞\`: all-ones exponent, zero fraction, sign clear. -/
theorem ofBits_top : Ideal.ofBits .f32 0x7F800000#32 = ⊤ := by
  simp [Ideal.ofBits, Ideal.ieee]

/-- \`-∞\`: all-ones exponent, zero fraction, sign set. -/
theorem ofBits_bot : Ideal.ofBits .f32 0xFF800000#32 = ⊥ := by
  simp [Ideal.ofBits, Ideal.ieee]

/-- \`4096.0\`: \`E = 139\`, \`T = 0\`, so \`2^23 · 2^(-11) = 2^12\`. -/
theorem ofBits_4096 : Ideal.ofBits .f32 0x45800000#32 = ((4096 : ℝ) : EReal) := by
  simp [Ideal.ofBits, Ideal.ieee, -EReal.coe_mul]; norm_num

/-- The single-precision word nearest \`10⁻³\`: \`E = 117\`, \`2^23 + T = 8589935\`. -/
def eR : ℝ := 8589935 / 2 ^ 33

/-- The single-precision word nearest \`10⁻¹\`: \`E = 123\`, \`2^23 + T = 13421773\`. -/
def hR : ℝ := 13421773 / 2 ^ 27

/-- The single-precision word nearest \`10⁻¹⁰\`: \`E = 93\`, \`2^23 + T = 14411519\`. -/
def epsR : ℝ := 14411519 / 2 ^ 57

theorem ofBits_e : Ideal.ofBits .f32 0x3A83126F#32 = (eR : EReal) := by
  simp [Ideal.ofBits, Ideal.ieee, -EReal.coe_mul, eR]; norm_num

theorem ofBits_h : Ideal.ofBits .f32 0x3DCCCCCD#32 = (hR : EReal) := by
  simp [Ideal.ofBits, Ideal.ieee, -EReal.coe_mul, hR]; norm_num

theorem ofBits_eps : Ideal.ofBits .f32 0x2EDBE6FF#32 = (epsR : EReal) := by
  simp [Ideal.ofBits, Ideal.ieee, -EReal.coe_mul, epsR]; norm_num

theorem eR_pos : 0 < eR := by unfold eR; positivity

theorem hR_pos : 0 < hR := by unfold hR; positivity

theorem epsR_pos : 0 < epsR := by unfold epsR; positivity

end Cert.Consts

end
-- ==== Proof.KerRowReal.lean ====
/-
  The kernel's stored value on a row of real similarities.  When every similarity is a real number of absolute
  value at most one, the constants of the kernel's expression are the real numbers their words denote, and the
  expression is the first arrangement of the row law: its value is the coercion of \`rowVal cr eR hR\`.
-/
import proofs.«141335_j27754078667510_2_alg».proof.Proof.KerRow
import proofs.«141335_j27754078667510_2_alg».proof.Proof.RowLaw
import proofs.«141335_j27754078667510_2_alg».proof.Proof.Consts

noncomputable section

namespace Cert.KerRowReal

open Idealize.ShloMosaic Cert.Consts

/-- The weight at the maximum over the sum of the weights, for a row of real similarities in \`[-1, 1]\`, is
    the real number \`exp ((e / D) / h) / ∑ k, exp (((c k - M) + e) / (D · h))\` with \`M\` the largest
    similarity and \`D = (1 - M) + e\`: the clamp changes nothing and the running maximum is \`M\`. -/
theorem kerRow_coe (cr : Fin 4096 → ℝ) (hc : ∀ k, |cr k| ≤ 1) :
    Cert.KerRow.kerRow (fun k => (cr k : EReal)) = ((Cert.RowLaw.rowVal cr eR hR : ℝ) : EReal) := by
  unfold Cert.KerRow.kerRow Cert.KerRow.kerW Cert.KerRow.kerDen Cert.KerRow.kerMax Cert.KerRow.clamp
  simp only [ofBits_one, ofBits_negone, ofBits_bot, ofBits_e, ofBits_h]
  exact Cert.RowLaw.kernel_row cr hc eR hR eR_pos hR_pos

end Cert.KerRowReal

end
-- ==== Proof.Spec.lean ====
/-
  The centred, channel-normalised features, as one expression on the extended reals.  For an input array x and the
  array y whose spatial mean centres it (both of shape [4, 64, 64, 128], position n = 64·row + column):
    mean b c      = (∑ over the 4096 positions of y (b, ·, ·, c)) / 4096,
    centred b n c = x (b, n / 64, n % 64, c) - mean b c,
    normed b n c  = centred b n c / (√(∑ over the 128 channels of centred²) + ε).
  Both programs compute `normed` before they form cosine similarities; they differ only in the order of the axes
  and in how the sums are indexed.
-/
import Idealize.ShloMosaic.PureOps.Ideal
import Idealize.ShloMosaic.Lib.ValueIdx

noncomputable section

namespace Cert.Spec

open Idealize.ShloMosaic Idealize.ShloMosaic.ValueIdx

/-- The shape of the two inputs. -/
abbrev SIn : Shape := ⟨4, ![4, 64, 64, 128]⟩

/-- The row of a flattened position. -/
def hi (n : Fin 4096) : Fin 64 := ⟨n.val / 64, by have := n.isLt; omega⟩
/-- The column of a flattened position. -/
def lo (n : Fin 4096) : Fin 64 := ⟨n.val % 64, by omega⟩

/-- The spatial mean of channel c in batch b. -/
def meanE (y : SIn.Idx → EReal) (b : Fin 4) (c : Fin 128) : EReal :=
  Ideal.div (Ideal.ofBits .f32 0x00000000#32 + ∑ k : Fin 4096, y (ix4 b (hi k) (lo k) c)) (Ideal.ofBits .f32 0x45800000#32)

/-- The feature at position n, channel c, centred by the mean of y. -/
def cenE (x y : SIn.Idx → EReal) (b : Fin 4) (n : Fin 4096) (c : Fin 128) : EReal :=
  x (ix4 b (hi n) (lo n) c) - meanE y b c

/-- The centred feature divided by its channel norm plus ε. -/
def nrmE (x y : SIn.Idx → EReal) (b : Fin 4) (n : Fin 4096) (c : Fin 128) : EReal :=
  Ideal.div (cenE x y b n c)
    (Ideal.sqrt (Ideal.ofBits .f32 0x00000000#32 + ∑ j : Fin 128, cenE x y b n j * cenE x y b n j)
      + Ideal.ofBits .f32 0x2EDBE6FF#32)

end Cert.Spec

end
-- ==== Proof.NormReal.lean ====
/-
  The centred, channel-normalised features on real inputs.  When both input arrays hold real numbers, the mean,
  the centred feature and the normalised feature are the coercions of their real twins: the divisor of the mean
  is the real 4096, and the divisor of the normalised feature is a square root of a sum of squares plus a
  positive ε, hence positive.  The normalised feature vector over the channels has squared length at most one.
-/
import proofs.«141335_j27754078667510_2_alg».proof.Proof.Spec
import proofs.«141335_j27754078667510_2_alg».proof.Proof.RowLaw
import proofs.«141335_j27754078667510_2_alg».proof.Proof.Consts

noncomputable section

namespace Cert.NormReal

open Idealize.ShloMosaic Idealize.ShloMosaic.ValueIdx Cert.Spec Cert.Consts Cert.RowLaw

/-- The real spatial mean of channel c in batch b. -/
def meanR (yr : SIn.Idx → ℝ) (b : Fin 4) (c : Fin 128) : ℝ :=
  (∑ k : Fin 4096, yr (ix4 b (hi k) (lo k) c)) / 4096

/-- The real feature at position n, channel c, centred by the mean of yr. -/
def cenR (xr yr : SIn.Idx → ℝ) (b : Fin 4) (n : Fin 4096) (c : Fin 128) : ℝ :=
  xr (ix4 b (hi n) (lo n) c) - meanR yr b c

/-- The real centred feature divided by its channel norm plus ε. -/
def nrmR (xr yr : SIn.Idx → ℝ) (b : Fin 4) (n : Fin 4096) (c : Fin 128) : ℝ :=
  cenR xr yr b n c / (Real.sqrt (∑ j : Fin 128, cenR xr yr b n j * cenR xr yr b n j) + epsR)

variable (xr yr : SIn.Idx → ℝ) (b : Fin 4) (n : Fin 4096) (c : Fin 128)

/-- The mean of coerced reals is the coercion of the real mean: the sum is a real and 4096 ≠ 0. -/
theorem meanE_coe : meanE (fun i => (yr i : EReal)) b c = ((meanR yr b c : ℝ) : EReal) := by
  unfold meanE meanR
  rw [ofBits_zero, ofBits_4096, zero_add, ← coe_sum, div_coe_coe _ _ (by norm_num)]

/-- The centred feature of coerced reals is the coercion of the real centred feature. -/
theorem cenE_coe :
    cenE (fun i => (xr i : EReal)) (fun i => (yr i : EReal)) b n c = ((cenR xr yr b n c : ℝ) : EReal) := by
  unfold cenE cenR
  rw [meanE_coe, ← EReal.coe_sub]

/-- The normalised feature of coerced reals is the coercion of the real normalised feature: the sum of
    squares is nonnegative, so its square root is the real one, and the divisor is positive. -/
theorem nrmE_coe :
    nrmE (fun i => (xr i : EReal)) (fun i => (yr i : EReal)) b n c = ((nrmR xr yr b n c : ℝ) : EReal) := by
  have hs0 : 0 ≤ ∑ j : Fin 128, cenR xr yr b n j * cenR xr yr b n j :=
    Finset.sum_nonneg (fun j _ => mul_self_nonneg _)
  have hpos : 0 < Real.sqrt (∑ j : Fin 128, cenR xr yr b n j * cenR xr yr b n j) + epsR :=
    add_pos_of_nonneg_of_pos (Real.sqrt_nonneg _) epsR_pos
  unfold nrmE nrmR
  simp only [cenE_coe, ← EReal.coe_mul]
  rw [ofBits_zero, ofBits_eps, zero_add, ← coe_sum, Ideal.sqrt_coe, if_neg (not_lt.mpr hs0), ← EReal.coe_add,
    div_coe_coe _ _ hpos.ne']

/-- The real normalised feature vector over the 128 channels has squared length at most one. -/
theorem nrmR_sq_le_one : ∑ c : Fin 128, nrmR xr yr b n c * nrmR xr yr b n c ≤ 1 :=
  normalized_sq_le_one (fun c => cenR xr yr b n c) epsR epsR_pos

end Cert.NormReal

end
-- ==== Proof.RefRow.lean ====
/-
  The reference's row statistic read at an index. For a batch b and a query position n, the reference forms the
  cosine similarities c k = ∑ j, A (b, j, n) · B (b, j, k) of the normalised feature arrays A, B (channel axis in
  the middle), the distances d k = 1 - c k, their minimum over k, the weights
  w k = exp ((1 - d k / (min d + e)) / h), and returns max over k of w k / ∑ w.  This module reads the reference's
  stages from the max-reduce down to the two normalised arrays and states the result as one expression
  `refRow` of the row of similarities.
-/
import proofs.«141335_j27754078667510_2_alg».proof.Proof.Gen.ReferenceIdeal.Read
import Idealize.ShloMosaic.Lib.ValueIdx
import Idealize.ShloMosaic.PureOps.Ideal.Laws

noncomputable section

namespace Cert.RefRow

open Cert.ReferenceIdeal Cert.ReferenceIdeal.Gen Cert.ReferenceIdeal.Read Idealize.ShloMosaic Idealize.ShloMosaic.ValueIdx

/-- The similarity of query position n and key position k in batch b: the contraction over the channel axis. -/
def cosR (A B : S4x128x4096.Idx → EReal) (b : Fin 4) (n k : Fin 4096) : EReal :=
  ∑ j : Fin 128, A (ix3 b j n) * B (ix3 b j k)

/-- The least distance of the row plus the guard e. -/
def refDen (c : Fin 4096 → EReal) : EReal :=
  Finset.univ.fold min (Ideal.ofBits .f32 0x7F800000#32) (fun k => Ideal.ofBits .f32 0x3F800000#32 - c k)
    + Ideal.ofBits .f32 0x3A83126F#32

/-- The weight of key k. -/
def refW (c : Fin 4096 → EReal) (k : Fin 4096) : EReal :=
  Ideal.exp (Ideal.div (Ideal.ofBits .f32 0x3F800000#32
    - Ideal.div (Ideal.ofBits .f32 0x3F800000#32 - c k) (refDen c)) (Ideal.ofBits .f32 0x3DCCCCCD#32))

/-- The largest normalised weight of the row. -/
def refRow (c : Fin 4096 → EReal) : EReal :=
  Finset.univ.fold max (Ideal.ofBits .f32 0xFF800000#32)
    (fun k => Ideal.div (refW c k) (Ideal.ofBits .f32 0x00000000#32 + ∑ j : Fin 4096, refW c j))

variable (x0 x1 : (⟨S4x64x64x128, .f32⟩ : BufTy).Contents (Elt Ideal))

/-- The distance at (b, n, k) is one minus the contraction. -/
theorem dist_apply (b : Fin 4) (n k : Fin 4096) :
    val_main_v25 (F := Ideal) x0 x1 (ix3 b n k)
      = Ideal.ofBits .f32 0x3F800000#32 - cosR (val_main_v17 (F := Ideal) x0 x1) (val_main_v22 (F := Ideal) x1) b n k := by
  rw [val_main_v25_apply, val_main_v24_apply, val_main_cst_3_apply, val_main_v23_apply]
  have el : ∀ j : Fin 128, lidx_main_v23 (ix3 b n k) j = ix3 b j n := fun j =>
    funext fun a => Fin.ext (by match a with | ⟨0, _⟩ => rfl | ⟨1, _⟩ => rfl | ⟨2, _⟩ => rfl)
  have er : ∀ j : Fin 128, ridx_main_v23 (ix3 b n k) j = ix3 b j k := fun j =>
    funext fun a => Fin.ext (by match a with | ⟨0, _⟩ => rfl | ⟨1, _⟩ => rfl | ⟨2, _⟩ => rfl)
  simp only [el, er, Ideal.subf_def, Ideal.ofBits_def]
  rfl

/-- The reduced index (b, n) with the key coordinate put back is (b, n, k). -/
theorem lift_row (h : S4x4096x4096.Reduces [2] S4x4096) (b : Fin 4) (n : Fin 4096)
    (k : Fin (S4x4096x4096.size 2)) : h.lift (ix2 b n) k = ix3 b n (⟨k.val, k.isLt⟩ : Fin 4096) := by
  funext c; apply Fin.ext
  rw [Shape.Reduces.lift_val]
  match c with
  | ⟨0, _⟩ => rfl
  | ⟨1, _⟩ => rfl
  | ⟨2, _⟩ => rfl

/-- The least distance of row (b, n): the fold of min from +∞ over the keys. -/
theorem minDist_apply (b : Fin 4) (n : Fin 4096) :
    val_main_v26 (F := Ideal) x0 x1 (ix2 b n)
      = Finset.univ.fold min (Ideal.ofBits .f32 0x7F800000#32)
          (fun k : Fin 4096 => val_main_v25 (F := Ideal) x0 x1 (ix3 b n k)) := by
  unfold val_main_v26
  have h : S4x4096x4096.Reduces [2] S4x4096 := by decide
  rw [Host.reduce_eq_fold_single FloatOps.minimumf _ _ reducesTo_S4x4096x4096_S4x4096_d2 h h_S_]
  have hf : (val_main_v25 (F := Ideal) x0 x1 ∘ h.lift (ix2 b n))
      = fun k : Fin 4096 => val_main_v25 (F := Ideal) x0 x1 (ix3 b n k) :=
    funext fun k => congrArg (val_main_v25 (F := Ideal) x0 x1) (lift_row h b n k)
  exact congrArg (fun f => Finset.fold min (Ideal.ofBits .f32 0x7F800000#32) f (Finset.univ : Finset (Fin 4096))) hf

/-- The row of similarities of (b, n). -/
abbrev row (b : Fin 4) (n : Fin 4096) : Fin 4096 → EReal :=
  fun k => cosR (val_main_v17 (F := Ideal) x0 x1) (val_main_v22 (F := Ideal) x1) b n k

/-- The divisor of row (b, n): its least distance plus e. -/
theorem den_apply (b : Fin 4) (n : Fin 4096) :
    val_main_v29 (F := Ideal) x0 x1 (ix3 b n (0 : Fin 1)) = refDen (row x0 x1 b n) := by
  rw [val_main_v29_apply, val_main_v27_apply, val_main_v28_apply, val_main_cst_5_apply]
  have e1 : idx_main_v27 (ix3 b n (0 : Fin 1)) = ix2 b n :=
    funext fun a => Fin.ext (by match a with | ⟨0, _⟩ => rfl | ⟨1, _⟩ => rfl)
  rw [e1, minDist_apply]
  simp only [dist_apply, Ideal.addf_def, Ideal.ofBits_def]
  rfl

/-- The weight at (b, n, k). -/
theorem weight_apply (b : Fin 4) (n k : Fin 4096) :
    val_main_v36 (F := Ideal) x0 x1 (ix3 b n k) = refW (row x0 x1 b n) k := by
  rw [val_main_v36_apply, val_main_v35_apply, val_main_v33_apply, val_main_v32_apply, val_main_cst_6_apply,
    val_main_v31_apply, val_main_v34_apply, val_main_cst_7_apply, val_main_v30_apply]
  have e1 : idx_main_v30 (ix3 b n k) = ix3 b n (0 : Fin 1) :=
    funext fun a => Fin.ext (by match a with | ⟨0, _⟩ => rfl | ⟨1, _⟩ => rfl | ⟨2, _⟩ => rfl)
  rw [e1, den_apply, dist_apply]
  simp only [Ideal.subf_def, Ideal.hostDivf_def, Ideal.hostUnary_exp_def, Ideal.ofBits_def]
  rfl

/-- The sum of the weights of row (b, n). -/
theorem weightSum_apply (b : Fin 4) (n : Fin 4096) :
    val_main_v37 (F := Ideal) x0 x1 (ix2 b n)
      = Ideal.ofBits .f32 0x00000000#32 + ∑ j : Fin 4096, refW (row x0 x1 b n) j := by
  rw [val_main_v37_apply, val_main_cst_8_apply]
  have e1 : ∀ k : Fin 4096, idx_main_v37 (ix2 b n) k = ix3 b n k := fun k =>
    funext fun a => Fin.ext (by match a with | ⟨0, _⟩ => rfl | ⟨1, _⟩ => rfl | ⟨2, _⟩ => rfl)
  simp only [e1, weight_apply, Ideal.ofBits_def]

/-- The normalised weight at (b, n, k). -/
theorem affinity_apply (b : Fin 4) (n k : Fin 4096) :
    val_main_v40 (F := Ideal) x0 x1 (ix3 b n k)
      = Ideal.div (refW (row x0 x1 b n) k) (Ideal.ofBits .f32 0x00000000#32 + ∑ j : Fin 4096, refW (row x0 x1 b n) j) := by
  rw [val_main_v40_apply, val_main_v39_apply, val_main_v38_apply]
  have e1 : idx_main_v38 (idx_main_v39 (ix3 b n k)) = ix2 b n :=
    funext fun a => Fin.ext (by match a with | ⟨0, _⟩ => rfl | ⟨1, _⟩ => rfl)
  rw [e1, weightSum_apply, weight_apply]
  simp only [Ideal.hostDivf_def]

/-- The reference's row statistic at (b, n) is `refRow` of the row of similarities. -/
theorem rowMax_apply (b : Fin 4) (n : Fin 4096) :
    val_main_v41 (F := Ideal) x0 x1 (ix2 b n) = refRow (row x0 x1 b n) := by
  unfold val_main_v41
  have h : S4x4096x4096.Reduces [2] S4x4096 := by decide
  rw [Host.reduce_eq_fold_single FloatOps.maximumf _ _ reducesTo_S4x4096x4096_S4x4096_d2 h h_S_]
  have hf : (val_main_v40 (F := Ideal) x0 x1 ∘ h.lift (ix2 b n))
      = fun k : Fin 4096 => Ideal.div (refW (row x0 x1 b n) k)
          (Ideal.ofBits .f32 0x00000000#32 + ∑ j : Fin 4096, refW (row x0 x1 b n) j) :=
    funext fun k => (congrArg (val_main_v40 (F := Ideal) x0 x1) (lift_row h b n k)).trans (affinity_apply x0 x1 b n _)
  exact congrArg (fun f => Finset.fold max (Ideal.ofBits .f32 0xFF800000#32) f (Finset.univ : Finset (Fin 4096))) hf

end Cert.RefRow

end
-- ==== Proof.RefRowReal.lean ====
/-
  The reference's row statistic on a row of real similarities.  When every similarity is a real number of
  absolute value at most one, the constants of the reference's expression are the real numbers their words
  denote, and the expression is the second arrangement of the row law: its value is the coercion of
  \`rowVal cr eR hR\`.
-/
import proofs.«141335_j27754078667510_2_alg».proof.Proof.RefRow
import proofs.«141335_j27754078667510_2_alg».proof.Proof.RowLaw
import proofs.«141335_j27754078667510_2_alg».proof.Proof.Consts

noncomputable section

namespace Cert.RefRowReal

open Idealize.ShloMosaic Cert.Consts

/-- The largest normalised weight of a row of real similarities in \`[-1, 1]\` is the real number
    \`exp ((e / D) / h) / ∑ k, exp (((c k - M) + e) / (D · h))\` with \`M\` the largest similarity and
    \`D = (1 - M) + e\`. -/
theorem refRow_coe (cr : Fin 4096 → ℝ) (hc : ∀ k, |cr k| ≤ 1) :
    Cert.RefRow.refRow (fun k => (cr k : EReal)) = ((Cert.RowLaw.rowVal cr eR hR : ℝ) : EReal) := by
  unfold Cert.RefRow.refRow Cert.RefRow.refW Cert.RefRow.refDen
  simp only [ofBits_bot, ofBits_top, ofBits_zero, ofBits_one, ofBits_e, ofBits_h]
  exact Cert.RowLaw.reference_row cr hc eR hR eR_pos hR_pos

end Cert.RefRowReal

end
-- ==== Proof.RefNorm.lean ====
/-
  The reference program's normalised features read at an index. The reference moves the channel axis in front of the
  two spatial axes ([4, 64, 64, 128] to [4, 128, 64, 64]), flattens the spatial axes to one of 4096 positions
  (position n = 64 * row + column), takes the mean of the second input over the positions, subtracts it from both
  inputs, takes the norm over the 128 channels at each position, adds ε and divides. Read at batch b, channel c and
  position n, the two quotients are `nrmE x0 x1 b n c` and `nrmE x1 x1 b n c`: every layout operation is a
  re-indexing, and the flattened index ((b * 128 + c) * 4096 + n) splits back into (b, c, n / 64, n % 64).
-/
import proofs.«141335_j27754078667510_2_alg».proof.Proof.Gen.ReferenceIdeal.Read
import proofs.«141335_j27754078667510_2_alg».proof.Proof.Spec
import Idealize.ShloMosaic.Lib.ValueIdx
import Idealize.ShloMosaic.PureOps.Ideal.Laws

noncomputable section

namespace Cert.RefNorm

open Cert.ReferenceIdeal Cert.ReferenceIdeal.Gen Cert.ReferenceIdeal.Read Idealize.ShloMosaic Idealize.ShloMosaic.ValueIdx Cert.Spec

/-- An input array at the extended reals. -/
abbrev In : Type := (⟨S4x64x64x128, .f32⟩ : BufTy).Contents (Elt Ideal)

/-! ## The index equations -/

/-- The flattened position ((b * 128 + c) * 4096 + n) of the [4, 128, 4096] array is position (b, c, n / 64, n % 64)
    of the [4, 128, 64, 64] array. -/
theorem reshape_idx (b : Fin 4) (c : Fin 128) (n : Fin 4096) :
    idx_main_v2 (ix3 b c n) = ix4 b c (hi n) (lo n) := by
  funext a
  apply Fin.ext
  have hb := b.isLt
  have hc := c.isLt
  have hn := n.isLt
  match a with
  | ⟨0, _⟩ => show ((b.val * 128 + c.val) * 4096 + n.val) / 524288 = b.val; omega
  | ⟨1, _⟩ => show ((b.val * 128 + c.val) * 4096 + n.val) / 4096 % 128 = c.val; omega
  | ⟨2, _⟩ => show ((b.val * 128 + c.val) * 4096 + n.val) / 64 % 64 = n.val / 64; omega
  | ⟨3, _⟩ => show ((b.val * 128 + c.val) * 4096 + n.val) % 64 = n.val % 64; omega

/-- The transposition reads (b, c, h, w) of the channel-first array at (b, h, w, c) of the input. -/
theorem transpose_idx (b : Fin 4) (c : Fin 128) (h w : Fin 64) :
    idx_main_v0 (ix4 b c h w) = ix4 b h w c := by
  funext a
  apply Fin.ext
  match a with
  | ⟨0, _⟩ => rfl
  | ⟨1, _⟩ => rfl
  | ⟨2, _⟩ => rfl
  | ⟨3, _⟩ => rfl

/-- The mean, broadcast over the two spatial axes, is read at (b, c). -/
theorem bcast_mean_idx (b : Fin 4) (c : Fin 128) (h w : Fin 64) :
    idx_main_v6 (idx_main_v7 (ix4 b c h w)) = ix2 b c := by
  funext a
  apply Fin.ext
  match a with
  | ⟨0, _⟩ => rfl
  | ⟨1, _⟩ => rfl

/-- The sum over positions at (b, c) runs over the indices (b, c, k). -/
theorem sum_pos_idx (b : Fin 4) (c : Fin 128) (k : Fin 4096) : idx_main_v3 (ix2 b c) k = ix3 b c k := by
  funext a
  apply Fin.ext
  match a with
  | ⟨0, _⟩ => rfl
  | ⟨1, _⟩ => rfl
  | ⟨2, _⟩ => rfl

/-- The sum over channels at (b, n) runs over the indices (b, j, n). -/
theorem sum_chan_idx (b : Fin 4) (n : Fin 4096) (j : Fin 128) : idx_main_call0_v1 (ix2 b n) j = ix3 b j n := by
  funext a
  apply Fin.ext
  match a with
  | ⟨0, _⟩ => rfl
  | ⟨1, _⟩ => rfl
  | ⟨2, _⟩ => rfl

/-- The [4, 1, 4096] array of sums at (b, 0, n) reads the [4, 4096] array at (b, n). -/
theorem keep_idx (b : Fin 4) (z : Fin 1) (n : Fin 4096) : idx_main_call0_v2 (ix3 b z n) = ix2 b n := by
  funext a
  apply Fin.ext
  match a with
  | ⟨0, _⟩ => rfl
  | ⟨1, _⟩ => rfl

/-- The norm, broadcast over the channel axis, is read at (b, 0, n). -/
theorem bcast_norm_idx (b : Fin 4) (c : Fin 128) (n : Fin 4096) :
    idx_main_v16 (ix3 b c n) = ix3 b (0 : Fin 1) n := by
  funext a
  apply Fin.ext
  match a with
  | ⟨0, _⟩ => rfl
  | ⟨1, _⟩ => rfl
  | ⟨2, _⟩ => rfl

/-! ## The mean -/

/-- The transposed, flattened second input at (b, c, n) is the input at (b, n / 64, n % 64, c). -/
theorem flatY_apply (x1 : In) (b : Fin 4) (c : Fin 128) (n : Fin 4096) :
    val_main_v2 (F := Ideal) x1 (ix3 b c n) = x1 (ix4 b (hi n) (lo n) c) := by
  rw [val_main_v2_apply, val_main_v1_apply, reshape_idx]
  exact congrArg x1 (transpose_idx b c (hi n) (lo n))

/-- The reference's mean at (b, c) is `meanE`. -/
theorem mean_apply (x1 : In) (b : Fin 4) (c : Fin 128) :
    val_main_v5 (F := Ideal) x1 (ix2 b c) = meanE x1 b c := by
  rw [val_main_v5_apply, val_main_v3_apply, val_main_v4_apply, val_main_cst_0_apply, val_main_cst_apply,
    Ideal.hostDivf_def, Ideal.ofBits_def, Ideal.ofBits_def]
  unfold meanE
  refine congrArg (fun s => Ideal.div (Ideal.ofBits .f32 0x00000000#32 + s) (Ideal.ofBits .f32 0x45800000#32))
    (Finset.sum_congr rfl fun k _ => ?_)
  rw [sum_pos_idx]
  exact flatY_apply x1 b c k

/-! ## The centred features -/

/-- The first input, centred by the mean of the second, at (b, c, n) is `cenE x0 x1 b n c`. -/
theorem cenX_apply (x0 x1 : In) (b : Fin 4) (c : Fin 128) (n : Fin 4096) :
    val_main_v11 (F := Ideal) x0 x1 (ix3 b c n) = cenE x0 x1 b n c := by
  have e : idx_main_v11 (ix3 b c n) = ix4 b c (hi n) (lo n) := reshape_idx b c n
  rw [val_main_v11_apply, e, val_main_v8_apply, val_main_v0_apply, val_main_v7_apply, val_main_v6_apply,
    bcast_mean_idx, mean_apply, transpose_idx, Ideal.subf_def]
  rfl

/-- The second input, centred by its own mean, at (b, c, n) is `cenE x1 x1 b n c`. -/
theorem cenY_apply (x1 : In) (b : Fin 4) (c : Fin 128) (n : Fin 4096) :
    val_main_v12 (F := Ideal) x1 (ix3 b c n) = cenE x1 x1 b n c := by
  have e : idx_main_v12 (ix3 b c n) = ix4 b c (hi n) (lo n) := reshape_idx b c n
  have e9 : idx_main_v6 (idx_main_v9 (ix4 b c (hi n) (lo n))) = ix2 b c := bcast_mean_idx b c (hi n) (lo n)
  have e1 : idx_main_v1 (ix4 b c (hi n) (lo n)) = ix4 b (hi n) (lo n) c := transpose_idx b c (hi n) (lo n)
  rw [val_main_v12_apply, e, val_main_v10_apply, val_main_v1_apply, val_main_v9_apply, val_main_v6_apply,
    e9, mean_apply, e1, Ideal.subf_def]
  rfl

/-! ## The channel norm plus ε -/

/-- The norm of the centred first input over the channels, plus ε, at (b, 0, n). -/
theorem normPlusX_apply (x0 x1 : In) (b : Fin 4) (n : Fin 4096) :
    val_main_v15 (F := Ideal) x0 x1 (ix3 b (0 : Fin 1) n)
      = Ideal.sqrt (Ideal.ofBits .f32 0x00000000#32 + ∑ j : Fin 128, cenE x0 x1 b n j * cenE x0 x1 b n j)
        + Ideal.ofBits .f32 0x2EDBE6FF#32 := by
  rw [val_main_v15_apply, val_main_v13_apply, val_main_v14_apply, val_main_cst_1_apply, val_main_call0_v2_apply,
    keep_idx, val_main_call0_v1_apply, val_main_call0_cst_apply, Ideal.addf_def, Ideal.hostUnary_sqrt_def,
    Ideal.ofBits_def, Ideal.ofBits_def]
  refine congrArg (fun s => Ideal.sqrt (Ideal.ofBits .f32 0x00000000#32 + s) + Ideal.ofBits .f32 0x2EDBE6FF#32)
    (Finset.sum_congr rfl fun j _ => ?_)
  rw [sum_chan_idx, val_main_call0_v0_apply, cenX_apply, Ideal.mulf_def]

/-- The norm of the centred second input over the channels, plus ε, at (b, 0, n). -/
theorem normPlusY_apply (x1 : In) (b : Fin 4) (n : Fin 4096) :
    val_main_v20 (F := Ideal) x1 (ix3 b (0 : Fin 1) n)
      = Ideal.sqrt (Ideal.ofBits .f32 0x00000000#32 + ∑ j : Fin 128, cenE x1 x1 b n j * cenE x1 x1 b n j)
        + Ideal.ofBits .f32 0x2EDBE6FF#32 := by
  have ek : idx_main_call1_v2 (ix3 b (0 : Fin 1) n) = ix2 b n := keep_idx b 0 n
  rw [val_main_v20_apply, val_main_v18_apply, val_main_v19_apply, val_main_cst_2_apply, val_main_call1_v2_apply,
    ek, val_main_call1_v1_apply, val_main_call1_cst_apply, Ideal.addf_def, Ideal.hostUnary_sqrt_def,
    Ideal.ofBits_def, Ideal.ofBits_def]
  refine congrArg (fun s => Ideal.sqrt (Ideal.ofBits .f32 0x00000000#32 + s) + Ideal.ofBits .f32 0x2EDBE6FF#32)
    (Finset.sum_congr rfl fun j _ => ?_)
  have ej : idx_main_call1_v1 (ix2 b n) j = ix3 b j n := sum_chan_idx b n j
  rw [ej, val_main_call1_v0_apply, cenY_apply, Ideal.mulf_def]

/-! ## The quotients -/

/-- The reference's normalised first input at (b, c, n). -/
theorem normX_apply (x0 x1 : In) (b : Fin 4) (c : Fin 128) (n : Fin 4096) :
    val_main_v17 (F := Ideal) x0 x1 (ix3 b c n) = nrmE x0 x1 b n c := by
  rw [val_main_v17_apply, val_main_v16_apply, bcast_norm_idx, normPlusX_apply, cenX_apply, Ideal.hostDivf_def]
  rfl

/-- The reference's normalised second input at (b, c, n). -/
theorem normY_apply (x1 : In) (b : Fin 4) (c : Fin 128) (n : Fin 4096) :
    val_main_v22 (F := Ideal) x1 (ix3 b c n) = nrmE x1 x1 b n c := by
  have e : idx_main_v21 (ix3 b c n) = ix3 b (0 : Fin 1) n := bcast_norm_idx b c n
  rw [val_main_v22_apply, val_main_v21_apply, e, normPlusY_apply, cenY_apply, Ideal.hostDivf_def]
  rfl

end Cert.RefNorm

end
-- ==== Proof.Target.lean ====
/-
  The reference's output on real inputs.  For real input arrays the normalised features are real, so every cosine
  similarity is a real inner product of two vectors of squared length at most one, hence of absolute value at
  most one; the reference's row statistic is then the coercion of the real row value.  This names that real
  number \`lossR\` and states the reference's whole output as the array of its coercions.
-/
import proofs.«141335_j27754078667510_2_alg».proof.Proof.NormReal
import proofs.«141335_j27754078667510_2_alg».proof.Proof.RefRowReal
import proofs.«141335_j27754078667510_2_alg».proof.Proof.RefNorm
import proofs.«141335_j27754078667510_2_alg».proof.Proof.RefRow

noncomputable section

namespace Cert.Target

open Cert.ReferenceIdeal Cert.ReferenceIdeal.Gen Cert.ReferenceIdeal.Read Idealize.ShloMosaic
  Idealize.ShloMosaic.ValueIdx Cert.Spec Cert.Consts Cert.NormReal Cert.RowLaw

/-- The cosine similarity of query position n and key position k in batch b. -/
def simR (xr yr : SIn.Idx → ℝ) (b : Fin 4) (n k : Fin 4096) : ℝ :=
  ∑ j : Fin 128, nrmR xr yr b n j * nrmR yr yr b k j

/-- The row value of query position n in batch b. -/
def lossR (xr yr : SIn.Idx → ℝ) (b : Fin 4) (n : Fin 4096) : ℝ :=
  rowVal (fun k => simR xr yr b n k) eR hR

/-- The array of row values, on the extended reals. -/
def target (xr yr : SIn.Idx → ℝ) : (⟨2, ![4, 4096]⟩ : Shape).Idx → EReal :=
  fun i => ((lossR xr yr (i 0) (i 1) : ℝ) : EReal)

/-- A similarity is an inner product of two vectors of squared length at most one. -/
theorem simR_abs_le (xr yr : SIn.Idx → ℝ) (b : Fin 4) (n k : Fin 4096) : |simR xr yr b n k| ≤ 1 :=
  abs_inner_le_one (fun j => nrmR xr yr b n j) (fun j => nrmR yr yr b k j)
    (nrmR_sq_le_one xr yr b n) (nrmR_sq_le_one yr yr b k)

/-- The inner product of coerced real vectors is the coercion of the real inner product. -/
theorem coe_inner (a b : Fin 128 → ℝ) :
    ∑ j, (a j : EReal) * (b j : EReal) = ((∑ j, a j * b j : ℝ) : EReal) := by
  rw [coe_sum]
  exact Finset.sum_congr rfl (fun j _ => (EReal.coe_mul _ _).symm)

/-- On real inputs the reference's output is the array of row values. -/
theorem ref_target (xr yr : SIn.Idx → ℝ) :
    val_main_v41 (F := Ideal) (fun i => (xr i : EReal)) (fun i => (yr i : EReal)) = target xr yr := by
  funext i
  obtain ⟨b, n, rfl⟩ : ∃ b n, i = ix2 b n := ⟨i 0, i 1, eq_ix2 i⟩
  rw [Cert.RefRow.rowMax_apply]
  have hrow : Cert.RefRow.row (fun i => (xr i : EReal)) (fun i => (yr i : EReal)) b n
      = fun k => ((simR xr yr b n k : ℝ) : EReal) := by
    funext k
    show Cert.RefRow.cosR _ _ b n k = _
    unfold Cert.RefRow.cosR
    simp only [Cert.RefNorm.normX_apply, Cert.RefNorm.normY_apply, nrmE_coe]
    exact coe_inner _ _
  rw [hrow, Cert.RefRowReal.refRow_coe _ (fun k => simR_abs_le xr yr b n k)]
  rfl

end Cert.Target

end
-- ==== Proof.KerSide.lean ====
/-
  The kernel body's stored value on real normalised features.  If the query block's row (b, q) holds the real
  normalised features of position n and the key array holds the real normalised features of every key position,
  then every similarity of the row is the real cosine similarity \`simR\`, of absolute value at most one, and the
  stored value is the coercion of the real row value: the entry (b, n) of the target array.
-/
import proofs.«141335_j27754078667510_2_alg».proof.Proof.KerRow
import proofs.«141335_j27754078667510_2_alg».proof.Proof.KerRowReal
import proofs.«141335_j27754078667510_2_alg».proof.Proof.Target

noncomputable section

namespace Cert.KerSide

open Cert.KernelIdeal Cert.KernelIdeal.Gen Idealize.ShloMosaic Idealize.ShloMosaic.ValueIdx Cert.NormReal
  Cert.Target Cert.KerRow

/-- The stored value at (b, q) is the target's entry (b, n) when the block's row q holds the normalised
    features of position n and the key array holds the normalised features of all key positions. -/
theorem ker_side (xr yr : Cert.Spec.SIn.Idx → ℝ) (x0 : Vec Ideal S4x256x128 .bf16)
    (x1 : Vec Ideal S4x4096x128 .bf16) (b : Fin 4) (q : Fin 256) (n : Fin 4096)
    (h0 : ∀ j : Fin 128, x0 (ix3 b q j) = ((nrmR xr yr b n j : ℝ) : EReal))
    (h1 : ∀ (k : Fin 4096) (j : Fin 128), x1 (ix3 b k j) = ((nrmR yr yr b k j : ℝ) : EReal)) :
    k0_pay1 (F := Ideal) x0 x1 (ix2 b q) = target xr yr (ix2 b n) := by
  rw [pay_apply]
  have hrow : row x0 x1 b q = fun k => ((simR xr yr b n k : ℝ) : EReal) := by
    funext k
    show ∑ j : Fin 128, x0 (ix3 b q j) * x1 (ix3 b k j) = _
    simp only [h0, h1]
    exact coe_inner _ _
  rw [hrow, Cert.KerRowReal.kerRow_coe _ (fun k => simR_abs_le xr yr b n k)]
  rfl

end Cert.KerSide

end
-- ==== Proof.KerNorm.lean ====
/-
  The kernel program's two window arrays read at an index. Before its one region the kernel program computes, on
  the host and in the inputs' own axis order [4, 64, 64, 128], the centred and channel-normalised features: the mean of
  the second input over the two spatial axes (one sum over both axes, divided by 4096), the two inputs minus that
  mean, the spatial axes flattened to 4096 positions (position n = 64 * row + column), the norm over the 128 channels
  at each position, plus ε, and the quotient, converted to bf16 (which changes no value on the extended reals). Read
  at batch b, position n and channel ch, the two arrays the region's windows read are `nrmE X Y b n ch` and
  `nrmE Y Y b n ch` for the launched inputs X and Y. The sum over two axes is re-indexed by the bijection between
  the pairs (row, column) and the positions.
-/
import proofs.«141335_j27754078667510_2_alg».proof.Proof.Gen.KernelIdeal.Frame
import proofs.«141335_j27754078667510_2_alg».proof.Proof.Spec
import Idealize.ShloMosaic.Lib.Pipeline.Value
import Idealize.ShloMosaic.Lib.ValueIdx
import Idealize.ShloMosaic.Lib.IdealHost
import Idealize.ShloMosaic.PureOps.Ideal.Laws
import Idealize.ShloMosaic.Lib.StableHlo.Run

noncomputable section

namespace Cert.KerNorm

open Cert.KernelIdeal Cert.KernelIdeal.Gen Idealize.ShloMosaic Idealize.ShloMosaic.TcCoe Idealize.SL.Sem
open Idealize.ShloMosaic.ValueIdx Cert.Spec

/-- An input array at the extended reals. -/
abbrev In : Type := FVec Ideal S4x64x64x128 .f32

/-! ## The stages, as functions of the two inputs -/

/-- The mean of `Y` over the two spatial axes, kept as a [4, 1, 1, 128] array: the sum over axes 1 and 2, broadcast,
    divided by 4096. -/
def mean4 (Y : In) : FVec Ideal S4x1x1x128 .f32 :=
  Host.divf
    (broadcastInDim S4x1x1x128 ![0, 3] bcast_S4x128_S4x1x1x128_0_3
      (Host.reduceAdd Y (constant (F := Ideal) S_ .f32 0x00000000#32) reducesTo_S4x64x64x128_S4x128_d1_2 h_S_))
    (broadcastInDim S4x1x1x128 ![] bcast_S_S4x1x1x128 (constant (F := Ideal) S_ .f32 0x45800000#32))

/-- `X` centred by the mean of `Y`, with the two spatial axes flattened to one of 4096 positions. -/
def cen (X Y : In) : FVec Ideal S4x4096x128 .f32 :=
  shapeCast S4x4096x128
    (subf X (broadcastInDim S4x64x64x128 ![0, 1, 2, 3] bcast_S4x1x1x128_S4x64x64x128_0_1_2_3 (mean4 Y)))
    shapeCasts_S4x64x64x128_S4x4096x128

/-- The norm over the channel axis of a [4, 4096, 128] array, plus ε, kept as a [4, 4096, 1] array. -/
def normPlus (Z : FVec Ideal S4x4096x128 .f32) : FVec Ideal S4x4096x1 .f32 :=
  addf
    (Host.sqrt (broadcastInDim S4x4096x1 ![0, 1] bcast_S4x4096_S4x4096x1_0_1
      (Host.reduceAdd (mulf Z Z) (constant (F := Ideal) S_ .f32 0x00000000#32) reducesTo_S4x4096x128_S4x4096_d2 h_S_)))
    (broadcastInDim S4x4096x1 ![] bcast_S_S4x4096x1 (constant (F := Ideal) S_ .f32 0x2EDBE6FF#32))

/-- The centred array divided by its channel norm plus ε, converted to bf16 (no change of value on the extended reals). -/
def win (X Y : In) : FVec Ideal S4x4096x128 .bf16 :=
  truncf .bf16
    (Host.divf (cen X Y)
      (broadcastInDim S4x4096x128 ![0, 1, 2] bcast_S4x4096x1_S4x4096x128_0_1_2 (normPlus (cen X Y))))
    bitsLt_bf16_f32

variable (m : (ℓ : Loc nD τ sig) → Buf (Elt Ideal) ℓ) (c : Dev nD)

/-- The first input as launched. -/
abbrev argX : In := m ((c.tc : Thread nD τ).loc main_arg0)
/-- The second input as launched. -/
abbrev argY : In := m ((c.tc : Thread nD τ).loc main_arg1)

/-! ## The run's term is the last stage -/

set_option maxRecDepth 8192 in
/-- The first window's array, as the region finds it, is the last stage at the launched inputs. -/
theorem windowX_eq : (Gen.V m c main_v22 : S4x4096x128.Idx → EReal) = win (argX m c) (argY m c) := by
  show StableHlo.after hostOps0 (fun b => m (c, b)) (Proc.devRef .tc main_v22) = _
  after_results
  rfl

set_option maxRecDepth 8192 in
/-- The second window's array likewise, both roles played by the second input. -/
theorem windowY_eq : (Gen.V m c main_v27 : S4x4096x128.Idx → EReal) = win (argY m c) (argY m c) := by
  show StableHlo.after hostOps0 (fun b => m (c, b)) (Proc.devRef .tc main_v27) = _
  after_results
  rfl

/-! ## The sum over the two spatial axes -/

/-- Dropping the two spatial coordinates keeps the batch coordinate first … -/
theorem drop_spatial_0 (i : S4x64x64x128.Idx) :
    ((reducesTo_S4x64x64x128_S4x128_d1_2.drop i) 0).val = (i 0).val :=
  Shape.ReducesTo.drop_apply_val_of_eq reducesTo_S4x64x64x128_S4x128_d1_2 i 0 0
/-- … and the channel coordinate second. -/
theorem drop_spatial_1 (i : S4x64x64x128.Idx) :
    ((reducesTo_S4x64x64x128_S4x128_d1_2.drop i) 1).val = (i 3).val :=
  Shape.ReducesTo.drop_apply_val_of_eq reducesTo_S4x64x64x128_S4x128_d1_2 i 1 3

/-- The indices (b, h, w, ch) that reduce to (b, ch) are in bijection with the positions k = 64 * h + w, so the sum
    over the two spatial axes is the sum over the 4096 positions. -/
theorem sum_spatial (Y : In) (init : EReal) (b : Fin 4) (ch : Fin 128) :
    Ideal.hostReduceAdd reducesTo_S4x64x64x128_S4x128_d1_2 Y init (ix2 b ch)
      = init + ∑ k : Fin 4096, Y (ix4 b (hi k) (lo k) ch) := by
  unfold Ideal.hostReduceAdd
  refine congrArg (init + ·) ?_
  have key : ∀ i ∈ Finset.univ.filter (fun i => reducesTo_S4x64x64x128_S4x128_d1_2.drop i = ix2 b ch),
      ix4 b (hi (⟨(i 1).val * 64 + (i 2).val, by
        have h1 : (i 1).val < 64 := (i 1).isLt
        have h2 : (i 2).val < 64 := (i 2).isLt
        omega⟩ : Fin 4096)) (lo (⟨(i 1).val * 64 + (i 2).val, by
        have h1 : (i 1).val < 64 := (i 1).isLt
        have h2 : (i 2).val < 64 := (i 2).isLt
        omega⟩ : Fin 4096)) ch = i := by
    intro i hi'
    have hj := (Finset.mem_filter.1 hi').2
    have e0 : (i 0).val = b.val :=
      (drop_spatial_0 i).symm.trans (congrArg (fun j : S4x128.Idx => (j 0).val) hj)
    have e3 : (i 3).val = ch.val :=
      (drop_spatial_1 i).symm.trans (congrArg (fun j : S4x128.Idx => (j 1).val) hj)
    have h1 : (i 1).val < 64 := (i 1).isLt
    have h2 : (i 2).val < 64 := (i 2).isLt
    funext a
    apply Fin.ext
    match a with
    | ⟨0, _⟩ => exact e0.symm
    | ⟨1, _⟩ => show ((i 1).val * 64 + (i 2).val) / 64 = (i 1).val; omega
    | ⟨2, _⟩ => show ((i 1).val * 64 + (i 2).val) % 64 = (i 2).val; omega
    | ⟨3, _⟩ => exact e3.symm
  refine Finset.sum_nbij' (fun i => (⟨(i 1).val * 64 + (i 2).val, by
      have h1 : (i 1).val < 64 := (i 1).isLt
      have h2 : (i 2).val < 64 := (i 2).isLt
      omega⟩ : Fin 4096)) (fun k => ix4 b (hi k) (lo k) ch) ?_ ?_ ?_ ?_ ?_
  · intro i _; exact Finset.mem_univ _
  · intro k _
    refine Finset.mem_filter.2 ⟨Finset.mem_univ _, ?_⟩
    funext a
    apply Fin.ext
    match a with
    | ⟨0, _⟩ => exact drop_spatial_0 _
    | ⟨1, _⟩ => exact drop_spatial_1 _
  · intro i hi'; exact key i hi'
  · intro k _
    apply Fin.ext
    have hk := k.isLt
    show (k.val / 64) * 64 + k.val % 64 = k.val
    omega
  · intro i hi'; exact congrArg Y (key i hi').symm

/-! ## The stages read at an index -/

/-- The mean at (b, 0, 0, ch) is `meanE`. -/
theorem mean4_apply (Y : In) (b : Fin 4) (z1 z2 : Fin 1) (ch : Fin 128) :
    mean4 Y (ix4 b z1 z2 ch) = meanE Y b ch := by
  unfold mean4
  rw [hostDivf_apply,
    broadcastInDim_apply _ bcast_S4x128_S4x1x1x128_0_3 _ (ix4 b z1 z2 ch) (ix2 b ch) (fun a => match a with
      | ⟨0, _⟩ => by show b.val = if (4 : Nat) = 1 then 0 else b.val; rw [if_neg (by decide)]
      | ⟨1, _⟩ => by show ch.val = if (128 : Nat) = 1 then 0 else ch.val; rw [if_neg (by decide)]),
    broadcastInDim_scalar_apply, hostReduceAdd_apply, constant_apply, constant_apply, sum_spatial]
  rfl

/-- The centred array at (b, n, ch) is `cenE`: position n of the flattened axis is row n / 64, column n % 64. -/
theorem cen_apply (X Y : In) (b : Fin 4) (n : Fin 4096) (ch : Fin 128) :
    cen X Y (ix3 b n ch) = cenE X Y b n ch := by
  unfold cen
  rw [shapeCast_apply _ shapeCasts_S4x64x64x128_S4x4096x128 (ix3 b n ch) (ix4 b (hi n) (lo n) ch) (by
      rewrite [Shape.rowMajor_val_four, Shape.rowMajor_val_three]
      have hn := n.isLt
      show ((b.val * 64 + n.val / 64) * 64 + n.val % 64) * 128 + ch.val = (b.val * 4096 + n.val) * 128 + ch.val
      omega),
    subf_apply,
    broadcastInDim_apply _ bcast_S4x1x1x128_S4x64x64x128_0_1_2_3 _ (ix4 b (hi n) (lo n) ch)
      (ix4 b (0 : Fin 1) (0 : Fin 1) ch) (fun a => match a with
      | ⟨0, _⟩ => by show b.val = if (4 : Nat) = 1 then 0 else b.val; rw [if_neg (by decide)]
      | ⟨1, _⟩ => by show 0 = if (1 : Nat) = 1 then 0 else (hi n).val; rw [if_pos rfl]
      | ⟨2, _⟩ => by show 0 = if (1 : Nat) = 1 then 0 else (lo n).val; rw [if_pos rfl]
      | ⟨3, _⟩ => by show ch.val = if (128 : Nat) = 1 then 0 else ch.val; rw [if_neg (by decide)]),
    mean4_apply]
  rfl

/-- The channel sum at (b, n) runs over the indices (b, n, j). -/
theorem lift_chan (b : Fin 4) (n : Fin 4096) (j : Fin 128)
    (h : S4x4096x128.Reduces [2] S4x4096) : h.lift (ix2 b n) j = ix3 b n j := by
  funext a
  apply Fin.ext
  match a with
  | ⟨0, _⟩ => rfl
  | ⟨1, _⟩ => rfl
  | ⟨2, _⟩ => rfl

/-- The channel norm plus ε at (b, n, 0). -/
theorem normPlus_apply (Z : FVec Ideal S4x4096x128 .f32) (b : Fin 4) (n : Fin 4096) (z : Fin 1) :
    normPlus Z (ix3 b n z)
      = Ideal.sqrt (Ideal.ofBits .f32 0x00000000#32 + ∑ j : Fin 128, Z (ix3 b n j) * Z (ix3 b n j))
        + Ideal.ofBits .f32 0x2EDBE6FF#32 := by
  unfold normPlus
  rw [addf_apply, broadcastInDim_scalar_apply, constant_apply]
  show Ideal.sqrt (broadcastInDim S4x4096x1 _ bcast_S4x4096_S4x4096x1_0_1 _ (ix3 b n z)) + _ = _
  rw [broadcastInDim_apply _ bcast_S4x4096_S4x4096x1_0_1 _ (ix3 b n z) (ix2 b n) (fun a => match a with
      | ⟨0, _⟩ => by show b.val = if (4 : Nat) = 1 then 0 else b.val; rw [if_neg (by decide)]
      | ⟨1, _⟩ => by show n.val = if (4096 : Nat) = 1 then 0 else n.val; rw [if_neg (by decide)]),
    hostReduceAdd_apply, constant_apply,
    Ideal.hostReduceAdd_single reducesTo_S4x4096x128_S4x4096_d2 (by decide)]
  refine congrArg (fun s => Ideal.sqrt (Ideal.ofBits .f32 0x00000000#32 + s) + Ideal.ofBits .f32 0x2EDBE6FF#32)
    (Finset.sum_congr rfl fun j _ => ?_)
  exact congrArg (fun i => Z i * Z i) (lift_chan b n j _)

/-- The last stage at (b, n, ch) is `nrmE`. -/
theorem win_apply (X Y : In) (b : Fin 4) (n : Fin 4096) (ch : Fin 128) :
    win X Y (ix3 b n ch) = nrmE X Y b n ch := by
  unfold win
  rw [truncf_apply, hostDivf_apply,
    broadcastInDim_apply _ bcast_S4x4096x1_S4x4096x128_0_1_2 _ (ix3 b n ch) (ix3 b n (0 : Fin 1)) (fun a => match a with
      | ⟨0, _⟩ => by show b.val = if (4 : Nat) = 1 then 0 else b.val; rw [if_neg (by decide)]
      | ⟨1, _⟩ => by show n.val = if (4096 : Nat) = 1 then 0 else n.val; rw [if_neg (by decide)]
      | ⟨2, _⟩ => by show 0 = if (1 : Nat) = 1 then 0 else ch.val; rw [if_pos rfl]),
    normPlus_apply, cen_apply]
  refine congrArg (fun s => Ideal.div (cenE X Y b n ch)
      (Ideal.sqrt (Ideal.ofBits .f32 0x00000000#32 + s) + Ideal.ofBits .f32 0x2EDBE6FF#32))
    (Finset.sum_congr rfl fun j _ => ?_)
  rw [cen_apply]

/-! ## The two windows -/

/-- The first window's array at (b, n, ch) is the first input, centred by the mean of the second and normalised. -/
theorem windowX_apply (b : Fin 4) (n : Fin 4096) (ch : Fin 128) :
    (Gen.V m c main_v22 : S4x4096x128.Idx → EReal) (ix3 b n ch) = nrmE (argX m c) (argY m c) b n ch := by
  rw [windowX_eq]
  exact win_apply _ _ b n ch

/-- The second window's array at (b, n, ch) is the second input, centred by its own mean and normalised. -/
theorem windowY_apply (b : Fin 4) (n : Fin 4096) (ch : Fin 128) :
    (Gen.V m c main_v27 : S4x4096x128.Idx → EReal) (ix3 b n ch) = nrmE (argY m c) (argY m c) b n ch := by
  rw [windowY_eq]
  exact win_apply _ _ b n ch

end Cert.KerNorm

end
-- ==== Proof.Tail.lean ====
/-
  What both programs do with the [4, 4096] array of row statistics: the mean over the 4096 positions of each batch,
  its logarithm, negated.  Stated once, over the shape facts the two programs each carry their own proofs of, so that
  the two programs' last four host operations are literally the same function.
-/
import Idealize.ShloMosaic.PureOps.Ideal.Laws
import Idealize.ShloMosaic.Lib.ValueIdx

noncomputable section

namespace Cert.Tail

open Idealize.ShloMosaic

abbrev SRows : Shape := ⟨2, ![4, 4096]⟩
abbrev SOut : Shape := ⟨1, ![4]⟩
abbrev SScalar : Shape := ⟨0, ![]⟩

/-- The mean over the positions, its logarithm, negated. -/
def tail (hr : SRows.ReducesTo [1] SOut) (hs : 0 < SScalar.numel) (hb : SScalar.BroadcastsInDim SOut (![] : Fin 0 → Fin SOut.rank))
    (a : SRows.Idx → EReal) : SOut.Idx → EReal :=
  Host.negf (F := Ideal) (φ := .f32) (Host.log (F := Ideal) (φ := .f32) (Host.divf (F := Ideal) (φ := .f32)
    (Host.reduceAdd (F := Ideal) (φ := .f32) a (constant (F := Ideal) SScalar .f32 0x00000000#32) hr hs)
    (broadcastInDim SOut ![] hb (constant (F := Ideal) SScalar .f32 0x45800000#32))))

end Cert.Tail

end
-- ==== Proof.KerValue.lean ====
/-
  The kernel program's result.  The one region writes, at grid point t, positions 256 t … 256 t + 255 of the [4, 4096]
  array of row statistics; the query window's block at t is those positions of the normalised x features, the key window's
  block the whole array of normalised y features.  With finite inputs every entry written is the real number `lossR`,
  so the blocks tile the array `target`; the four host operations after the region then form `tail` of it.
-/
import proofs.«141335_j27754078667510_2_alg».proof.Proof.Gen.KernelIdeal.Frame
import proofs.«141335_j27754078667510_2_alg».proof.Proof.KerSide
import proofs.«141335_j27754078667510_2_alg».proof.Proof.KerNorm
import proofs.«141335_j27754078667510_2_alg».proof.Proof.Tail
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KerValue

open Cert.KernelIdeal Cert.KernelIdeal.Gen Idealize.ShloMosaic Idealize.ShloMosaic.TcCoe Idealize.SL.Sem Idealize.ShloMosaic.ValueIdx
open Idealize.ShloMosaic.Pipeline (Dat Cfg Window)
open Cert.Spec Cert.NormReal Cert.Target

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the grid: the query window and the output window move along the position axis
    with the grid point; the key window never moves. -/
theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val :=
  (by decide +kernel : ∀ t : Fin grid0.N, _)

/-- The query window's block at point t is positions 256 t … 256 t + 255 of its array. -/
theorem iblk0_apply (c : Dev nD) (t : Fin cfg0.N) (b : Fin 4) (q : Fin 256) (j : Fin 128) (n : Fin 4096)
    (hn : n.val = 256 * t.val + q.val) :
    (iblk m c 0 t : Vec Ideal S4x256x128 .bf16) (ix3 b q j) = (V m c main_v22 : S4x4096x128.Idx → EReal) (ix3 b n j) := by
  obtain ⟨e0, e1, e2, -⟩ := idx_facts t
  unfold iblk
  rw [View.read_apply]
  show V m c main_v22 _ = V m c main_v22 _
  congr 1
  funext a
  apply Fin.ext
  match a with
  | ⟨0, _⟩ => show win0_0.index t 0 * 4 + 1 * b.val = b.val; rw [e0]; omega
  | ⟨1, _⟩ => show win0_0.index t 1 * 256 + 1 * q.val = n.val; rw [e1, hn]; omega
  | ⟨2, _⟩ => show win0_0.index t 2 * 128 + 1 * j.val = j.val; rw [e2]; omega

/-- The key window's block at every point is its whole array. -/
theorem iblk1_apply (c : Dev nD) (t : Fin cfg0.N) (b : Fin 4) (k : Fin 4096) (j : Fin 128) :
    (iblk m c 1 t : Vec Ideal S4x4096x128 .bf16) (ix3 b k j) = (V m c main_v27 : S4x4096x128.Idx → EReal) (ix3 b k j) := by
  obtain ⟨-, -, -, e0, e1, e2, -⟩ := idx_facts t
  unfold iblk
  rw [View.read_apply]
  show V m c main_v27 _ = V m c main_v27 _
  congr 1
  funext a
  apply Fin.ext
  match a with
  | ⟨0, _⟩ => show win0_1.index t 0 * 4 + 1 * b.val = b.val; rw [e0]; omega
  | ⟨1, _⟩ => show win0_1.index t 1 * 4096 + 1 * k.val = k.val; rw [e1]; omega
  | ⟨2, _⟩ => show win0_1.index t 2 * 128 + 1 * j.val = j.val; rw [e2]; omega

section FiniteCore

variable (c : Dev nD) (xr yr : SIn.Idx → ℝ)
  (hX : Cert.KerNorm.argX m c = fun i => (xr i : EReal))
  (hY : Cert.KerNorm.argY m c = fun i => (yr i : EReal))

include hX hY

/-- With finite inputs the query window's array holds the real normalised x features … -/
theorem winX_real (b : Fin 4) (n : Fin 4096) (j : Fin 128) :
    (V m c main_v22 : S4x4096x128.Idx → EReal) (ix3 b n j) = ((nrmR xr yr b n j : ℝ) : EReal) := by
  rw [Cert.KerNorm.windowX_apply, hX, hY]
  exact nrmE_coe xr yr b n j

/-- … and the key window's array the real normalised y features. -/
theorem winY_real (b : Fin 4) (n : Fin 4096) (j : Fin 128) :
    (V m c main_v27 : S4x4096x128.Idx → EReal) (ix3 b n j) = ((nrmR yr yr b n j : ℝ) : EReal) := by
  rw [Cert.KerNorm.windowY_apply, hY]
  exact nrmE_coe yr yr b n j

/-- What point t writes back is block t of `target`. -/
theorem flushed_eq (t : Fin cfg0.N) :
    (dats m 0 c).flushed 2 t = ((cfg0.win 2).blk t).view.read (Elt Ideal) (target xr yr) := by
  show (cfg0.win 2).cut (grid0.coords t) ((dats m 0 c).after 2 t) = _
  rw [after0_2]
  unfold out0_2
  rw [View.canon_unit_zero hz2]
  simp only [View.ld_unit_zero (S := S4x256x128) hz3, View.ld_unit_zero (S := S4x4096x128) hz3]
  funext y
  obtain ⟨b, q, rfl⟩ : ∃ (b : Fin 4) (q : Fin 256), y = ix2 b q := ⟨y 0, y 1, eq_ix2 y⟩
  have ht : t.val < 16 := by have h1 := t.isLt; have hN : cfg0.N = 16 := N_0; omega
  have hq : q.val < 256 := q.isLt
  have hn : 256 * t.val + q.val < 4096 := by omega
  obtain ⟨-, -, -, -, -, -, e0, e1⟩ := idx_facts t
  refine (Cert.KerSide.ker_side xr yr (iblk m c 0 t) (iblk m c 1 t) b q ⟨256 * t.val + q.val, hn⟩ ?_ ?_).trans ?_
  · intro j
    exact (iblk0_apply m c t b q j ⟨256 * t.val + q.val, hn⟩ rfl).trans (winX_real m c xr yr hX hY b _ j)
  · intro k j
    exact (iblk1_apply m c t b k j).trans (winY_real m c xr yr hX hY b k j)
  · rw [View.read_apply]
    show target xr yr _ = target xr yr _
    congr 1
    funext a
    apply Fin.ext
    match a with
    | ⟨0, _⟩ => show b.val = win0_2.index t 0 * 4 + 1 * b.val; rw [e0]; omega
    | ⟨1, _⟩ => show 256 * t.val + q.val = win0_2.index t 1 * 256 + 1 * q.val; rw [e1]; omega

/-- Every index of the array is in the block of the point its position falls in. -/
theorem cover (i : S4x4096.Idx) :
    ∃ t : Fin cfg0.N, (cfg0.win 2).flush t = true ∧ i ∈ ((cfg0.win 2).blk t).view.set := by
  have h0 : (i 0).val < 4 := (i 0).isLt
  have h1 : (i 1).val < 4096 := (i 1).isLt
  obtain ⟨t, ht⟩ : ∃ t : Fin cfg0.N, t.val = (i 1).val / 256 :=
    ⟨⟨(i 1).val / 256, by rw [show cfg0.N = 16 from N_0]; omega⟩, rfl⟩
  refine ⟨t, flush0_2 t, ?_⟩
  show i ∈ ((View.whole main_v28).slice (win0_2.rect t)).set
  rw [View.set_slice_whole, Rect.mem_set_unit]
  obtain ⟨-, -, -, -, -, -, e0, e1⟩ := idx_facts t
  intro a
  match a with
  | ⟨0, _⟩ => show win0_2.index t (0 : Fin 2) * 4 ≤ (i 0).val ∧ (i 0).val < win0_2.index t (0 : Fin 2) * 4 + 4; rw [e0]; omega
  | ⟨1, _⟩ => show win0_2.index t (1 : Fin 2) * 256 ≤ (i 1).val ∧ (i 1).val < win0_2.index t (1 : Fin 2) * 256 + 256; rw [e1, ht]; omega

/-- So the array of row statistics ends holding `target`. -/
theorem final : (dats m 0 c).arrAt 2 cfg0.N = target xr yr :=
  (dats m 0 c).arrAt_eq_of_cover 2 (target xr yr) (fun t _ => flushed_eq m c xr yr hX hY t) (cover m c xr yr hX hY)

end FiniteCore

/-- The four host operations after the region, of the array the region leaves. -/
theorem tail_eq (c : Dev nD) :
    Pipeline.afterTail₀ cfgs (dats m) 0 (V0 m) [hostOps1] c main_v33
      = Cert.Tail.tail reducesTo_S4x4096_S4_d1 h_S_ bcast_S_S4 ((dats m 0 c).arrAt 2 cfg0.N) := by
  unfold Pipeline.afterTail₀
  show StableHlo.after hostOps1 _ (Proc.devRef .tc main_v33) = _
  after_results
  have e : Pipeline.withArrays (cfgs 0).spec c (V0 m c) (fun w => (dats m 0 c).arrAt w (cfgs 0).N) (Proc.tc.devRef main_v28)
      = (dats m 0 c).arrAt 2 cfg0.N := Pipeline.withArrays_arr spec0 launch0.win.arr_inj c _ _ 2
  rw [e]
  rfl

/-- The run, read: with finite inputs on every core, the result is `tail` of `target` and the arguments are unchanged. -/
theorem run (xr yr : Dev nD → SIn.Idx → ℝ)
    (hX : ∀ c, Cert.KerNorm.argX m c = fun i => (xr c i : EReal))
    (hY : ∀ c, Cert.KerNorm.argY m c = fun i => (yr c i : EReal)) :
    θ_run defs (onTc (τ := τ) (main (F := Ideal))) ⟨m, fun _ => 0, ρ⟩ fun r => ∀ c : Dev nD,
      r.2.mem ((c.tc : Thread nD τ).loc main_v33) = Cert.Tail.tail reducesTo_S4x4096_S4_d1 h_S_ bcast_S_S4 (target (xr c) (yr c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v33 (Pipeline.mem_restRefs_of main_v33 (by decide) (by decide))).trans
        ((tail_eq m c).trans (congrArg (Cert.Tail.tail reducesTo_S4x4096_S4_d1 h_S_ bcast_S_S4) (final m c (xr c) (yr c) (hX c) (hY c)))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KerValue

end
-- ==== Proof.RefValue.lean ====
/-
  The reference program's result from its row statistics. The reference's last five host operations take the
  [4, 4096] array of row statistics to the mean over the 4096 positions of each batch, its logarithm, negated: the
  function `Cert.Tail.tail`. At inputs that are real numbers the row statistics are the array `Cert.Target.target`,
  so the reference's result is `tail` of that array.
-/
import proofs.«141335_j27754078667510_2_alg».proof.Proof.Gen.ReferenceIdeal.Read
import proofs.«141335_j27754078667510_2_alg».proof.Proof.Target
import proofs.«141335_j27754078667510_2_alg».proof.Proof.Tail

noncomputable section

namespace Cert.RefValue

open Cert.ReferenceIdeal Cert.ReferenceIdeal.Gen Cert.ReferenceIdeal.Read Idealize.ShloMosaic Idealize.ShloMosaic.TcCoe
  Idealize.SL.Sem

/-- The reference's last stage is `tail` of its row statistics: the two are the same composition of host operations. -/
theorem val_tail (X Y : (⟨S4x64x64x128, .f32⟩ : BufTy).Contents (Elt Ideal)) :
    val_main_v46 (F := Ideal) X Y
      = Cert.Tail.tail reducesTo_S4x4096_S4_d1 h_S_ bcast_S_S4 (val_main_v41 (F := Ideal) X Y) := rfl

/-- THE REFERENCE'S RESULT at real inputs: `tail` of the target array of row statistics. -/
theorem ref_result (m' : (ℓ : Loc nD τ sig) → Buf (Elt Ideal) ℓ) (c : Dev nD) (xr yr : Cert.Spec.SIn.Idx → ℝ)
    (hX : (m' ((c.tc : Thread nD τ).loc main_arg0) : S4x64x64x128.Idx → EReal) = fun i => (xr i : EReal))
    (hY : (m' ((c.tc : Thread nD τ).loc main_arg1) : S4x64x64x128.Idx → EReal) = fun i => (yr i : EReal)) :
    Cert.ReferenceIdeal.Value.res_main_v46 m' c
      = Cert.Tail.tail reducesTo_S4x4096_S4_d1 h_S_ bcast_S_S4 (Cert.Target.target xr yr) := by
  have hv : Cert.ReferenceIdeal.Value.res_main_v46 m' c
      = val_main_v46 (F := Ideal) (fun i => (xr i : EReal)) (fun i => (yr i : EReal)) :=
    (val_main_v46_eq m' c).trans (congrArg₂ (val_main_v46 (F := Ideal)) hX hY)
  rw [hv, val_tail, Cert.Target.ref_target]

end Cert.RefValue

end
-- ==== Proof.lean ====
/- The proof of `Cert.Claim`: a contextual-loss kernel against its jnp reference, as extended reals.

   Both programs centre the two feature arrays by the spatial mean of the second, normalise every position's channel
   vector by its Euclidean norm plus ε, form the cosine similarities c(n, k) of every query position n against every key
   position k, and reduce each row c(n, ·) to one number; the result is minus the logarithm of the mean of those numbers
   over n.  The reference computes, per row, max over k of w k / ∑ w with w k = exp ((1 - (1 - c k) / (min (1 - c) + e)) / h).
   The kernel clamps c to [-1, 1], takes M = max c and D = (1 - M) + e, and stores exp ((e / D) / h) / ∑ exp ((c k - M + e) / (D h)).
   With finite inputs every normalised vector has norm at most one, so by Cauchy–Schwarz |c| ≤ 1: the clamp is the
   identity, D = min (1 - c) + e ≥ e > 0, the two exponents agree, and the largest weight is the one at the maximum of c:
   the two rows' numbers are one real number (Proof/RowLaw.lean).  The rest is reading: the reference's stages
   (Proof/RefNorm.lean, Proof/RefRow.lean), the kernel's host operations before the region (Proof/KerNorm.lean), the kernel
   body's stored value (Proof/KerRow.lean), the blocks of the region's output tiling the array (Proof/KerValue.lean), and the
   same last four host operations on both sides (Proof/Tail.lean).  The frames of the two kernel programs and the
   reference's run are the generated ones. -/
import proofs.«141335_j27754078667510_2_alg».proof.Defs
import proofs.«141335_j27754078667510_2_alg».proof.Proof.Gen.Kernel
import proofs.«141335_j27754078667510_2_alg».proof.Proof.Gen.Kernel.Frame
import proofs.«141335_j27754078667510_2_alg».proof.Proof.Gen.KernelIdeal
import proofs.«141335_j27754078667510_2_alg».proof.Proof.Gen.KernelIdeal.Frame
import proofs.«141335_j27754078667510_2_alg».proof.Proof.Gen.ReferenceIdeal
import proofs.«141335_j27754078667510_2_alg».proof.Proof.Gen.Pre_finite_inputs
import proofs.«141335_j27754078667510_2_alg».proof.Proof.Gen.ReferenceIdeal.Run
import proofs.«141335_j27754078667510_2_alg».proof.Proof.Gen.ReferenceIdeal.Read
import proofs.«141335_j27754078667510_2_alg».proof.Proof.FiniteInputs
import proofs.«141335_j27754078667510_2_alg».proof.Proof.KerValue
import proofs.«141335_j27754078667510_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Under the precondition both inputs are arrays of real numbers on every core; the kernel's result array ends at the
    common tail of `target` of those reals (Proof/KerValue.lean) and so does the reference's (Proof/RefValue.lean). -/
theorem algebraic : Cert.algebraic_KernelIdeal_ReferenceIdeal := by
  intro m ρ m' ρ' hpre hagree
  have hfin := fun c => Cert.FiniteInputs.finite_of_pre _ _ (hpre c)
  choose xr hxr using fun c => (hfin c).1
  choose yr hyr using fun c => (hfin c).2
  refine ⟨fun c => Cert.Tail.tail Cert.KernelIdeal.Gen.reducesTo_S4x4096_S4_d1 Cert.KernelIdeal.Gen.h_S_ Cert.KernelIdeal.Gen.bcast_S_S4
      (Cert.Target.target (xr c) (yr c)),
    Cert.KerValue.run m ρ xr yr (fun c => funext (hxr c)) (fun c => funext (hyr c)), ?_⟩
  refine (θ_run Cert.ReferenceIdeal.defs _ _).mono (fun _ h c => ⟨(h c).1.trans ?_, (h c).2⟩)
    (Cert.ReferenceIdeal.Value.run (F := Ideal) m' ρ')
  exact Cert.RefValue.ref_result m' c (xr c) (yr c)
    (by rw [(hagree c).1]; exact funext (hxr c)) (by rw [(hagree c).2]; exact funext (hyr c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
